-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S256x128 .f32) (main_arg3 : FVec F S128 .f32) (main_arg4 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩

abbrev nBuf : Space → Nat
  | .hbm => 37
  | .vmem => 17
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S256x128, .bf16⟩
  | .hbm, ⟨21, _⟩ => ⟨S100000x128, .bf16⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .bf16⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .bf16⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .bf16⟩
  | .local _ .vmem, ⟨10, _⟩ => ⟨S5000x128, .bf16⟩
  | .local _ .vmem, ⟨11, _⟩ => ⟨S5000x1, .f32⟩
  | .local _ .vmem, ⟨12, _⟩ => ⟨S5000x1, .f32⟩
  | .local _ .vmem, ⟨13, _⟩ => ⟨S128, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .i1⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The graph convolution both programs compute, as two formulas of the argument arrays.

  Arguments: node features `x : [100000, 256]`, an edge list `ei : [2, 1600000]` of 32-bit node numbers (row 0 the source,
  row 1 the target of each edge), a weight `W : [256, 128]`, a bias and a slope `alpha : [128]`.  Write `h = x · W`,
  `col e` for the target of edge `e` read as a signed integer (an edge whose target is not a node number in `[0, 100000)`
  is dropped by every sum below), and `node v` for the node a row lookup at the number `v` reads: `v` read signed, increased by
  100000 when negative, clamped into `[0, 99999]`.

  The kernel's form (`outK`): with `deg n = #{e : col e = n} + 1` and `d n = deg n ^ (-1/2)`, first `hs n = h n · d n`, then
      pre n k = d n · (∑_{e : col e = n} hs (node (row e)) k + hs n k) + bias k.
  The reference's form (`outR`): the edge list is extended by one self loop `n → n` per node (1700000 edges), the degree is
  the count over the extended list, `d n = if deg n > 0 then deg n ^ (-1/2) else 0`, and
      pre n k = ∑_{e : col e = n} h (node (row e)) k · (d (node (row e)) · d (node (col e))) + bias k.
  Both end with the same activation `act a p = if p > 0 then p else a · p`.
-/
import Idealize.ShloMosaic.Lib.ValueIdx
import Idealize.ShloMosaic.PureOps.Ideal.Laws

noncomputable section

open scoped BigOperators

namespace Cert.Gcn

open Idealize.ShloMosaic Idealize.ShloMosaic.ValueIdx

/-- The float literal 1.0 at the extended reals. -/
abbrev one : EReal := Ideal.ofBits .f32 0x3F800000#32
/-- The float literal 0.0 at the extended reals. -/
abbrev zero : EReal := Ideal.ofBits .f32 0x00000000#32

/-- A negative node number increased by the number of nodes (32-bit arithmetic). -/
def wrapIdx (v : BitVec 32) : BitVec 32 := Scalar.select (IntOp.cmpi .slt v 0#32) (IntOp.addi v 100000#32) v

/-- The node a row lookup at the number `v` reads. -/
def nodeOf (v : BitVec 32) : Fin 100000 := ⟨min (wrapIdx v).toInt.toNat (100000 - 1), by omega⟩

/-- The activation: `p` where positive, `a · p` elsewhere. -/
def act (a p : EReal) : EReal := Scalar.select (Ideal.cmp .ogt p zero) p (a * p)

section Forms
variable (x : FVec Ideal ⟨2, ![100000, 256]⟩ .f32) (ei : IVec ⟨2, ![2, 1600000]⟩ 32)
  (W : FVec Ideal ⟨2, ![256, 128]⟩ .f32) (bias alpha : FVec Ideal ⟨1, ![128]⟩ .f32)

/-- Edge `e`'s source number. -/
def rowOf (e : Fin 1600000) : BitVec 32 := ei (ix2 (0 : Fin 2) e)
/-- Edge `e`'s target number. -/
def colOf (e : Fin 1600000) : BitVec 32 := ei (ix2 (1 : Fin 2) e)

/-- `h = x · W`. -/
def hmat (n : Fin 100000) (k : Fin 128) : EReal := ∑ j : Fin 256, x (ix2 n j) * W (ix2 j k)

/-! ### The kernel's form -/

/-- The in-degree over the edge list, plus one for the self loop. -/
def degK (n : Fin 100000) : EReal := (zero + ∑ e : Fin 1600000, if (colOf ei e).toInt = (n.val : Int) then one else 0) + one
def dinvK (n : Fin 100000) : EReal := Ideal.rsqrt (degK ei n)
/-- The transformed features scaled by the source's factor. -/
def hsK (n : Fin 100000) (k : Fin 128) : EReal := hmat x W n k * dinvK ei n
/-- The scaled features summed over the edges into `n`. -/
def aggK (n : Fin 100000) (k : Fin 128) : EReal :=
  zero + ∑ e : Fin 1600000, if (colOf ei e).toInt = (n.val : Int) then hsK x ei W (nodeOf (rowOf ei e)) k else 0
def preK (n : Fin 100000) (k : Fin 128) : EReal := dinvK ei n * (aggK x ei W n k + hsK x ei W n k) + bias (ix1 k)
def outK (n : Fin 100000) (k : Fin 128) : EReal := act (alpha (ix1 k)) (preK x ei W bias n k)

/-! ### The reference's form -/

/-- The extended edge list's sources: the edges, then node `q` for the self loop `1600000 + q`. -/
def rowR (e : Fin 1700000) : BitVec 32 :=
  if h : e.val < 1600000 then rowOf ei ⟨e.val, h⟩ else BitVec.ofNat 32 (e.val - 1600000)
/-- The extended edge list's targets. -/
def colR (e : Fin 1700000) : BitVec 32 :=
  if h : e.val < 1600000 then colOf ei ⟨e.val, h⟩ else BitVec.ofNat 32 (e.val - 1600000)
def degR (n : Fin 100000) : EReal := zero + ∑ e : Fin 1700000, if (colR ei e).toInt = (n.val : Int) then one else 0
def dinvR (n : Fin 100000) : EReal := Scalar.select (Ideal.cmp .ogt (degR ei n) zero) (Ideal.rsqrt (degR ei n)) zero
def normR (e : Fin 1700000) : EReal := dinvR ei (nodeOf (rowR ei e)) * dinvR ei (nodeOf (colR ei e))
def aggR (n : Fin 100000) (k : Fin 128) : EReal :=
  zero + ∑ e : Fin 1700000, if (colR ei e).toInt = (n.val : Int) then hmat x W (nodeOf (rowR ei e)) k * normR ei e else 0
def preR (n : Fin 100000) (k : Fin 128) : EReal := aggR x ei W n k + bias (ix1 k)
def outR (n : Fin 100000) (k : Fin 128) : EReal := act (alpha (ix1 k)) (preR x ei W bias n k)

end Forms

end Cert.Gcn

end
-- ==== Proof.LibVecGatherScatter.lean ====
/-
  Gather from a vector and scatter-add into a vector, read at an index.

  `v[idx]` of a vector `v : [N]` at `E` positions lowers to `stablehlo.gather` with no offset axis, collapsed_slice_dims [0],
  start_index_map [0], index_vector_dim 1 and slice sizes [1] over the positions as an `[E, 1]` array: result element `e`
  is `v` at position `idx[e, 0]`, read signed and clamped into `[0, N − 1]` (`gather_vec_apply`).

  `segment_sum(u, idx)` of updates `u : [E]` into `[N]` lowers to `stablehlo.scatter` with an `add` body, no update window
  axis, inserted_window_dims [0], scatter_dims_to_operand_dims [0], index_vector_dim 1: at the extended reals element `n` of
  the result is the operand's plus the sum, over the updates `e` whose position `idx[e, 0]`, read signed and NOT clamped,
  is `n`, of `u e` (`scatterAdd_vec_apply`). A position outside `[0, N)` lands nowhere.

  Both for any sizes `N`, `E` and any index width. Also: a sum over the indices of a rank-1 shape is the sum over its
  coordinate (`sum_idx1`).
-/
import Idealize.ShloMosaic.Lib.ValueIdx
import Idealize.ShloMosaic.PureOps.Ideal.Laws

noncomputable section

open scoped BigOperators

namespace Idealize.ShloMosaic.VecIndexing

open Idealize.ShloMosaic Idealize.ShloMosaic.ValueIdx

/-- A rank-1 index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The entry `[e, 0]` of an `[E, 1]` array of positions. -/
abbrev posAt {E : Nat} (e : Fin E) : (⟨2, ![E, 1]⟩ : Shape).Idx := ix2 e (⟨0, Nat.one_pos⟩ : Fin 1)

/-! ## The gather of single entries -/

section Gather
variable {α : Type}

/-- The dimension numbers of a gather of single entries of an `[N]` operand at `[E, 1]` positions. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at position `idx[e, 0]`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (posAt e)).toInt.toNat (N - 1), by omega⟩ : Fin N)) := by
  unfold Host.gather
  refine congrArg x ?_
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = posAt e := by
      funext b; refine Fin.ext ?_
      match b with
      | ⟨0, _⟩ => rfl
      | ⟨1, _⟩ => rfl
    rw [hsi]
    rfl

end Gather

/-! ## The scatter-add of single entries -/

section Scatter

/-- The dimension numbers of a scatter of `[E]` updates into an `[N]` operand at `[E, 1]` positions. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The window of update `e` starts at the position `idx[e, 0]`, read signed. -/
theorem vecScatter_start0 : (vecScatterDims N E wf).start (ix1 e) idx 0 = (idx (posAt e)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = posAt e := by
    funext b; refine Fin.ext ?_
    match b with
    | ⟨0, _⟩ => rfl
    | ⟨1, _⟩ => rfl
  rw [hsi]

/-- The one axis is inserted: the window coordinate there is `0`. -/
theorem vecScatter_window0 : (vecScatterDims N E wf).window (ix1 e) 0 = 0 := by
  unfold ScatterDims.window
  rw [dif_neg]
  intro h
  have : (0 : Fin 1) ∈ (List.finRange 1).filter (fun a => a ∉ [(0 : Fin 1)]) := h
  simp at this

/-- Update `e` lands at `n` exactly when its position, read signed, is `n`. -/
theorem vecScatter_resultIdx_eq_some_iff (n : Fin N) :
    (vecScatterDims N E wf).resultIdx? (ix1 e) idx = some (ix1 n) ↔ (idx (posAt e)).toInt = (n.val : Int) := by
  have hs0 := vecScatter_start0 wf idx e
  have hw0 := vecScatter_window0 wf e
  have hn : n.val < N := n.isLt
  unfold ScatterDims.resultIdx?
  split
  · rename_i h
    rw [Option.some.injEq]
    constructor
    · intro heq
      have e0 := congrArg Fin.val (congrFun heq 0)
      have h0 := (h 0).1
      simp only [hs0, hw0] at e0 h0
      have e0' : ((idx (posAt e)).toInt + ((0 : Nat) : Int)).toNat = n.val := e0
      omega
    · intro h0
      funext a
      refine Fin.ext ?_
      match a with
      | ⟨0, _⟩ =>
        show ((vecScatterDims N E wf).start (ix1 e) idx 0 + ((vecScatterDims N E wf).window (ix1 e) 0 : Nat)).toNat = n.val
        rw [hs0, hw0, h0]; omega
  · rename_i h
    constructor
    · intro heq; exact absurd heq (by simp)
    · intro h0
      exfalso
      apply h
      intro a
      match a with
      | ⟨0, _⟩ =>
        show 0 ≤ (vecScatterDims N E wf).start (ix1 e) idx 0 + ((vecScatterDims N E wf).window (ix1 e) 0 : Nat)
          ∧ (vecScatterDims N E wf).start (ix1 e) idx 0 + ((vecScatterDims N E wf).window (ix1 e) 0 : Nat) < (N : Int)
        rw [hs0, hw0, h0]; omega

/-- THE VECTOR SCATTER-ADD READ AT `n`, on the extended reals: the operand there plus the sum over the updates whose position,
    read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e : Fin E, if (idx (posAt e)).toInt = (n.val : Int) then upd (ix1 e) else 0 := by
  show x (ix1 n) + ∑ j ∈ Finset.univ.filter (fun j => (vecScatterDims N E wf).resultIdx? j idx = some (ix1 n)), upd j = _
  refine congrArg (x (ix1 n) + ·) ?_
  rw [Finset.sum_filter, sum_idx1]
  refine Finset.sum_congr rfl fun e _ => ?_
  simp only [vecScatter_resultIdx_eq_some_iff]

end Scatter

end Idealize.ShloMosaic.VecIndexing

end
-- ==== Proof.LibRowGatherScatter.lean ====
/-
  Row gather and row scatter-add, read at an index.

  `x[idx]` of a matrix `x : [N, C]` at a vector of `E` row numbers lowers to `stablehlo.gather` with offset_dims [1],
  collapsed_slice_dims [0], start_index_map [0], index_vector_dim 1 and slice sizes [1, C] over the row numbers as an
  `[E, 1]` array: result element `(e, k)` is `x` at row `idx[e, 0]` — read signed and clamped into `[0, N − 1]` — and
  column `k` (`gather_rows_apply`).

  `segment_sum(u, idx)` of updates `u : [E, C]` into `[N, C]` lowers to `stablehlo.scatter` with an `add` body,
  update_window_dims [1], inserted_window_dims [0], scatter_dims_to_operand_dims [0], index_vector_dim 1: at the extended
  reals element `(n, c)` of the result is the operand's plus the sum, over the rows `e` whose row number `idx[e, 0]`, read
  signed and NOT clamped, is `n`, of `u (e, c)` (`scatterAdd_rows_apply`). A row number outside `[0, N)` lands nowhere.

  Both for any sizes `N`, `E`, `C` and any index width.
-/
import Idealize.ShloMosaic.Lib.ValueIdx
import Idealize.ShloMosaic.PureOps.Ideal.Laws

noncomputable section

open scoped BigOperators

namespace Idealize.ShloMosaic.RowIndexing

open Idealize.ShloMosaic Idealize.ShloMosaic.ValueIdx

/-- The entry `[e, 0]` of an `[E, 1]` array of row numbers. -/
abbrev rowAt {E : Nat} (e : Fin E) : (⟨2, ![E, 1]⟩ : Shape).Idx := ix2 e (⟨0, Nat.one_pos⟩ : Fin 1)

/-! ## The gather of whole rows -/

section Gather
variable {α : Type}

/-- The dimension numbers of a gather of whole rows of an `[N, C]` operand at `[E, 1]` row numbers. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]`, read signed and clamped into `[0, N − 1]`, column `k`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (rowAt e)).toInt.toNat (N - 1), by omega⟩ : Fin N) k) := by
  unfold Host.gather
  refine congrArg x ?_
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = rowAt e := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = _
    rw [GatherDims.batchCoord_eq_zero _ _ _ List.not_mem_nil]
    have hs : (rowGatherDims N E C wf).start (ix2 e k) idx 1 = 0 := by
      unfold GatherDims.start
      rw [dif_neg (show ¬ (1 : Fin 2) ∈ (rowGatherDims N E C wf).startIndexMap from
        fun h => absurd (List.mem_singleton.mp h) (show ¬ ((1 : Fin 2) = 0) by decide))]
    have ho : (rowGatherDims N E C wf).offCoord (ix2 e k) 1 = k.val := by
      unfold GatherDims.offCoord
      rw [dif_pos (show (1 : Fin 2) ∈ (rowGatherDims N E C wf).sKept from (GatherDims.mem_sKept _ _).mpr
        ⟨fun h => absurd (List.mem_singleton.mp h) (show ¬ ((1 : Fin 2) = 0) by decide), List.not_mem_nil⟩)]
      rfl
    rw [hs, ho, Nat.add_zero, Nat.zero_add]

end Gather

/-! ## The scatter-add of whole rows -/

section Scatter

/-- The dimension numbers of a scatter of `[E, C]` update rows into an `[N, C]` operand at `[E, 1]` row numbers. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the window of update `(e, k)` starts at the row number `idx[e, 0]`, read signed. -/
theorem rowScatter_start0 : (rowScatterDims N E C wf).start (ix2 e k) idx 0 = (idx (rowAt e)).toInt := by
  unfold ScatterDims.start
  rw [dif_pos (show (0 : Fin 2) ∈ (rowScatterDims N E C wf).scatterDimsToOperandDims from List.mem_singleton.mpr rfl)]
  have hsi : (rowScatterDims N E C wf).siIdx (ix2 e k) ⟨List.idxOf (0 : Fin 2) (rowScatterDims N E C wf).scatterDimsToOperandDims,
      List.idxOf_lt_length_iff.2 (List.mem_singleton.mpr rfl)⟩ = rowAt e := by
    funext b; refine Fin.ext ?_
    match b with
    | ⟨0, _⟩ => rfl
    | ⟨1, _⟩ => rfl
  rw [hsi]

/-- On the column axis it starts at `0`. -/
theorem rowScatter_start1 : (rowScatterDims N E C wf).start (ix2 e k) idx 1 = 0 := by
  unfold ScatterDims.start
  rw [dif_neg (show ¬ (1 : Fin 2) ∈ (rowScatterDims N E C wf).scatterDimsToOperandDims from
    fun h => absurd (List.mem_singleton.mp h) (show ¬ ((1 : Fin 2) = 0) by decide))]

/-- The row axis is inserted: the window coordinate there is `0`. -/
theorem rowScatter_window0 : (rowScatterDims N E C wf).window (ix2 e k) 0 = 0 := by
  unfold ScatterDims.window
  rw [dif_neg]
  intro h
  have : (0 : Fin 2) ∈ (List.finRange 2).filter (fun a => a ∉ [(0 : Fin 2)]) := h
  simp at this

/-- On the column axis the window coordinate is the update's column. -/
theorem rowScatter_window1 : (rowScatterDims N E C wf).window (ix2 e k) 1 = k.val := by
  unfold ScatterDims.window
  rw [dif_pos]
  · rfl
  · show (1 : Fin 2) ∈ (List.finRange 2).filter (fun a => a ∉ [(0 : Fin 2)])
    simp

/-- Update `(e, k)` lands at `(n, c)` exactly when its row number, read signed, is `n` and `k = c`. -/
theorem rowScatter_resultIdx_eq_some_iff (n : Fin N) (c : Fin C) :
    (rowScatterDims N E C wf).resultIdx? (ix2 e k) idx = some (ix2 n c)
      ↔ (idx (rowAt e)).toInt = (n.val : Int) ∧ k = c := by
  have hs0 := rowScatter_start0 wf idx e k
  have hs1 := rowScatter_start1 wf idx e k
  have hw0 := rowScatter_window0 wf e k
  have hw1 := rowScatter_window1 wf e k
  have hn : n.val < N := n.isLt
  have hk : k.val < C := k.isLt
  unfold ScatterDims.resultIdx?
  split
  · rename_i h
    rw [Option.some.injEq]
    constructor
    · intro heq
      have e0 := congrArg Fin.val (congrFun heq 0)
      have e1 := congrArg Fin.val (congrFun heq 1)
      have h0 := (h 0).1
      simp only [hs0, hw0, hs1, hw1] at e0 e1 h0
      have e0' : ((idx (rowAt e)).toInt + ((0 : Nat) : Int)).toNat = n.val := e0
      have e1' : ((0 : Int) + (k.val : Int)).toNat = c.val := e1
      refine ⟨by omega, Fin.ext (by omega)⟩
    · rintro ⟨h0, rfl⟩
      funext a
      refine Fin.ext ?_
      match a with
      | ⟨0, _⟩ =>
        show ((rowScatterDims N E C wf).start (ix2 e k) idx 0 + ((rowScatterDims N E C wf).window (ix2 e k) 0 : Nat)).toNat = n.val
        rw [hs0, hw0, h0]; omega
      | ⟨1, _⟩ =>
        show ((rowScatterDims N E C wf).start (ix2 e k) idx 1 + ((rowScatterDims N E C wf).window (ix2 e k) 1 : Nat)).toNat = k.val
        rw [hs1, hw1]; omega
  · rename_i h
    constructor
    · intro heq; exact absurd heq (by simp)
    · rintro ⟨h0, rfl⟩
      exfalso
      apply h
      intro a
      match a with
      | ⟨0, _⟩ =>
        show 0 ≤ (rowScatterDims N E C wf).start (ix2 e k) idx 0 + ((rowScatterDims N E C wf).window (ix2 e k) 0 : Nat)
          ∧ (rowScatterDims N E C wf).start (ix2 e k) idx 0 + ((rowScatterDims N E C wf).window (ix2 e k) 0 : Nat) < (N : Int)
        rw [hs0, hw0, h0]; omega
      | ⟨1, _⟩ =>
        show 0 ≤ (rowScatterDims N E C wf).start (ix2 e k) idx 1 + ((rowScatterDims N E C wf).window (ix2 e k) 1 : Nat)
          ∧ (rowScatterDims N E C wf).start (ix2 e k) idx 1 + ((rowScatterDims N E C wf).window (ix2 e k) 1 : Nat) < (C : Int)
        rw [hs1, hw1]; omega

/-- THE ROW SCATTER-ADD READ AT `(n, c)`, on the extended reals: the operand there plus the sum over the update rows whose row
    number, read signed, is `n`, of the update at column `c`. -/
theorem scatterAdd_rows_apply {φ : FTy} (x : FVec Ideal ⟨2, ![N, C]⟩ φ) (upd : FVec Ideal ⟨2, ![E, C]⟩ φ) (n : Fin N) (c : Fin C) :
    Host.scatterAdd (rowScatterDims N E C wf) x idx upd (ix2 n c)
      = x (ix2 n c) + ∑ e : Fin E, if (idx (rowAt e)).toInt = (n.val : Int) then upd (ix2 e c) else 0 := by
  show x (ix2 n c) + ∑ j ∈ Finset.univ.filter (fun j => (rowScatterDims N E C wf).resultIdx? j idx = some (ix2 n c)), upd j = _
  refine congrArg (x (ix2 n c) + ·) ?_
  rw [Finset.sum_filter, sum_idx2]
  refine Finset.sum_congr rfl fun e _ => ?_
  simp only [rowScatter_resultIdx_eq_some_iff]
  by_cases h : (idx (rowAt e)).toInt = (n.val : Int)
  · simp only [h, true_and, if_true]
    rw [Finset.sum_ite_eq' Finset.univ c (fun k => upd (ix2 e k))]
    simp
  · simp [h]

end Scatter

end Idealize.ShloMosaic.RowIndexing

end
-- ==== Proof.LibVecConcat.lean ====
/-
  Two vectors laid end to end, read at an index, and a sum over `Fin n` split at a cut.

  The concatenation of `x : [a]` and `y : [b]` along their one axis, of total length `n`, is `x` at a position below `a`
  (`concat_vec_left`) and `y` at `a + q` (`concat_vec_right`); a sum over `Fin n` with `a + b = n` is the sum over the first
  `a` positions plus the sum over the last `b` (`sum_fin_split`). For any sizes.
-/
import Idealize.ShloMosaic.Lib.ValueIdx
import Idealize.ShloMosaic.Lib.Pipeline.Value

open scoped BigOperators

namespace Idealize.ShloMosaic.VecConcat

open Idealize.ShloMosaic Idealize.ShloMosaic.ValueIdx

variable {α : Type}

/-- A position in the first piece reads the first vector there. -/
theorem concat_vec_left {a b n : Nat} (x : (⟨1, ![a]⟩ : Shape).Idx → α) (y : (⟨1, ![b]⟩ : Shape).Idx → α)
    (h : Shape.Concatenates [(⟨1, ![a]⟩ : Shape), ⟨1, ![b]⟩] ⟨1, ![n]⟩ 0) (p : Fin a) (hp : p.val < n) :
    concatenate (⟨1, ![n]⟩ : Shape) 0 [⟨⟨1, ![a]⟩, x⟩, ⟨⟨1, ![b]⟩, y⟩] h (ix1 (⟨p.val, hp⟩ : Fin n)) = x (ix1 p) :=
  concatenate_pair_apply_left 0 x y h (ix1 (⟨p.val, hp⟩ : Fin n)) rfl (ix1 p) (fun d => match d with | ⟨0, _⟩ => rfl)

/-- A position `a + q` reads the second vector at `q`. -/
theorem concat_vec_right {a b n : Nat} (x : (⟨1, ![a]⟩ : Shape).Idx → α) (y : (⟨1, ![b]⟩ : Shape).Idx → α)
    (h : Shape.Concatenates [(⟨1, ![a]⟩ : Shape), ⟨1, ![b]⟩] ⟨1, ![n]⟩ 0) (q : Fin b) (hq : a + q.val < n) :
    concatenate (⟨1, ![n]⟩ : Shape) 0 [⟨⟨1, ![a]⟩, x⟩, ⟨⟨1, ![b]⟩, y⟩] h (ix1 (⟨a + q.val, hq⟩ : Fin n)) = y (ix1 q) :=
  concatenate_pair_apply_right 0 x y h (ix1 (⟨a + q.val, hq⟩ : Fin n)) rfl rfl (ix1 q)
    (fun d => match d with | ⟨0, _⟩ => fun hd => absurd rfl hd)
    (by show q.val + a = a + q.val; omega)

/-- A sum over `Fin n` split at `a`. -/
theorem sum_fin_split {M : Type*} [AddCommMonoid M] {a b n : Nat} (hn : a + b = n) (f : Fin n → M) :
    ∑ e : Fin n, f e = ∑ p : Fin a, f ⟨p.val, by omega⟩ + ∑ q : Fin b, f ⟨a + q.val, by omega⟩ := by
  subst hn
  rw [Fin.sum_univ_add]
  rfl

end Idealize.ShloMosaic.VecConcat
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.RefForm.lean ====
/-
  The reference program's result, read at an index, is the specification's reference form outR.

  The reference extends the edge list by one self loop per node (two concatenations), counts the extended list's targets into
  the degree (a scatter-add of ones), takes d = deg ^ (-1/2) where the degree is positive and 0 elsewhere, looks d up at
  both ends of every extended edge (two gathers, after the negative-number wrap), multiplies, looks the transformed features
  x · W up at the source (a gather of rows), scales them by the product, sums them by target (a scatter-add of rows), adds the
  bias and applies the activation.  Each of these values is read here at explicit coordinates, one lemma per value, in program
  order; the last one is the statement.
-/
import proofs.«101936_j37598143709729_2_alg».proof.Proof.RefRead
import proofs.«101936_j37598143709729_2_alg».proof.Proof.Spec
import proofs.«101936_j37598143709729_2_alg».proof.Proof.LibVecGatherScatter
import proofs.«101936_j37598143709729_2_alg».proof.Proof.LibRowGatherScatter
import proofs.«101936_j37598143709729_2_alg».proof.Proof.LibVecConcat
import proofs.«101936_j37598143709729_2_alg».proof.Proof.LibBroadcastInDim2
import Idealize.ShloMosaic.Lib.ValueIdx
import Idealize.ShloMosaic.PureOps.Ideal.Laws

noncomputable section

open scoped BigOperators

namespace Cert.Gcn.Ref

open Cert.ReferenceIdeal Cert.ReferenceIdeal.Gen Idealize.ShloMosaic Idealize.ShloMosaic.ValueIdx
open Idealize.ShloMosaic.VecIndexing Idealize.ShloMosaic.RowIndexing Idealize.ShloMosaic.VecConcat

variable (x0 : (⟨S100000x256, .f32⟩ : BufTy).Contents (Elt Ideal)) (x1 : (⟨S2x1600000, .i32⟩ : BufTy).Contents (Elt Ideal))
  (x2 : (⟨S256x128, .f32⟩ : BufTy).Contents (Elt Ideal)) (x3 x4 : (⟨S128, .f32⟩ : BufTy).Contents (Elt Ideal))

/-! ## The extended edge list -/

/-- The first row of the edge list, as a vector. -/
theorem v2_at (p : Fin 1600000) : Read.val_main_v2 (F := Ideal) x1 (ix1 p) = Cert.Gcn.rowOf x1 p := by
  rw [Read.val_main_v2_apply, Read.val_main_v1_apply]
  refine congrArg x1 ?_
  funext a
  refine Fin.ext ?_
  match a with
  | ⟨0, _⟩ => rfl
  | ⟨1, _⟩ => exact Nat.mod_eq_of_lt p.isLt

/-- The second row of the edge list, as a vector. -/
theorem v5_at (p : Fin 1600000) : Read.val_main_v5 (F := Ideal) x1 (ix1 p) = Cert.Gcn.colOf x1 p := by
  rw [Read.val_main_v5_apply, Read.val_main_v4_apply]
  refine congrArg x1 ?_
  funext a
  refine Fin.ext ?_
  match a with
  | ⟨0, _⟩ => rfl
  | ⟨1, _⟩ => exact Nat.mod_eq_of_lt p.isLt

/-- The extended list's sources: an edge's source below the cut, the node q at 1600000 + q. -/
theorem v3_at (e : Fin 1700000) : Read.val_main_v3 (F := Ideal) x1 (ix1 e) = Cert.Gcn.rowR x1 e := by
  unfold Read.val_main_v3 Cert.Gcn.rowR
  by_cases h : e.val < 1600000
  · rw [dif_pos h]
    exact (concat_vec_left (Read.val_main_v2 (F := Ideal) x1) (Read.val_main_v0 (F := Ideal))
      Facts₀.concatenates_S1600000_S100000_S1700000_d0 ⟨e.val, h⟩ e.isLt).trans (v2_at x1 ⟨e.val, h⟩)
  · rw [dif_neg h]
    have hq : e.val - 1600000 < 100000 := by have := e.isLt; omega
    have he : e = (⟨1600000 + (⟨e.val - 1600000, hq⟩ : Fin 100000).val, by show 1600000 + (e.val - 1600000) < 1700000; omega⟩ : Fin 1700000) :=
      Fin.ext (by show e.val = 1600000 + (e.val - 1600000); omega)
    refine (congrArg (fun t => concatenate S1700000 0 [⟨S1600000, Read.val_main_v2 (F := Ideal) x1⟩, ⟨S100000, Read.val_main_v0 (F := Ideal)⟩]
      Facts₀.concatenates_S1600000_S100000_S1700000_d0 (ix1 t)) he).trans ?_
    exact concat_vec_right (Read.val_main_v2 (F := Ideal) x1) (Read.val_main_v0 (F := Ideal))
      Facts₀.concatenates_S1600000_S100000_S1700000_d0 ⟨e.val - 1600000, hq⟩ _

/-- The extended list's targets. -/
theorem v6_at (e : Fin 1700000) : Read.val_main_v6 (F := Ideal) x1 (ix1 e) = Cert.Gcn.colR x1 e := by
  unfold Read.val_main_v6 Cert.Gcn.colR
  by_cases h : e.val < 1600000
  · rw [dif_pos h]
    exact (concat_vec_left (Read.val_main_v5 (F := Ideal) x1) (Read.val_main_v0 (F := Ideal))
      Facts₀.concatenates_S1600000_S100000_S1700000_d0 ⟨e.val, h⟩ e.isLt).trans (v5_at x1 ⟨e.val, h⟩)
  · rw [dif_neg h]
    have hq : e.val - 1600000 < 100000 := by have := e.isLt; omega
    have he : e = (⟨1600000 + (⟨e.val - 1600000, hq⟩ : Fin 100000).val, by show 1600000 + (e.val - 1600000) < 1700000; omega⟩ : Fin 1700000) :=
      Fin.ext (by show e.val = 1600000 + (e.val - 1600000); omega)
    refine (congrArg (fun t => concatenate S1700000 0 [⟨S1600000, Read.val_main_v5 (F := Ideal) x1⟩, ⟨S100000, Read.val_main_v0 (F := Ideal)⟩]
      Facts₀.concatenates_S1600000_S100000_S1700000_d0 (ix1 t)) he).trans ?_
    exact concat_vec_right (Read.val_main_v5 (F := Ideal) x1) (Read.val_main_v0 (F := Ideal))
      Facts₀.concatenates_S1600000_S100000_S1700000_d0 ⟨e.val - 1600000, hq⟩ _

/-- The entry [e, 0] of a column is the vector's entry e. -/
theorem col_idx (e : Fin 1700000) :
    ((fun a => match a with | ⟨0, _⟩ => ⟨((posAt e) 0).val, ((posAt e) 0).isLt⟩) : S1700000.Idx) = ix1 e := by
  funext a
  match a with
  | ⟨0, _⟩ => rfl

/-! ## The degree and its inverse square root -/

theorem v9_at (e : Fin 1700000) : Read.val_main_v9 (F := Ideal) x1 (posAt e) = Cert.Gcn.colR x1 e := by
  rw [Read.val_main_v9_apply]
  exact (congrArg (Read.val_main_v6 (F := Ideal) x1) (col_idx e)).trans (v6_at x1 e)

theorem v7_at (e : Fin 1700000) : Read.val_main_v7 (F := Ideal) (ix1 e) = Cert.Gcn.one := by
  rw [Read.val_main_v7_apply, Read.val_main_cst_apply, Ideal.ofBits_def]

theorem v8_at (n : Fin 100000) : Read.val_main_v8 (F := Ideal) (ix1 n) = Cert.Gcn.zero := by
  rw [Read.val_main_v8_apply, Read.val_main_cst_0_apply, Ideal.ofBits_def]

/-- The degree: the count of the extended list's targets equal to n. -/
theorem v10_at (n : Fin 100000) : Read.val_main_v10 (F := Ideal) x1 (ix1 n) = Cert.Gcn.degR x1 n := by
  unfold Read.val_main_v10 Cert.Gcn.degR
  refine (scatterAdd_vec_apply Facts₀.scatter_S100000_S1700000x1_S1700000_n_0_0_1_wf (Read.val_main_v9 (F := Ideal) x1)
    (Read.val_main_v8 (F := Ideal)) (Read.val_main_v7 (F := Ideal)) n).trans ?_
  rw [v8_at]
  simp only [v9_at, v7_at]

theorem v11_at (n : Fin 100000) : Read.val_main_v11 (F := Ideal) (ix1 n) = Cert.Gcn.zero := by
  rw [Read.val_main_v11_apply, Read.val_main_cst_1_apply, Ideal.ofBits_def]

theorem v14_at (n : Fin 100000) : Read.val_main_v14 (F := Ideal) (ix1 n) = Cert.Gcn.zero := by
  rw [Read.val_main_v14_apply, Read.val_main_cst_2_apply, Ideal.ofBits_def]

/-- d n: the degree's inverse square root where the degree is positive, zero elsewhere. -/
theorem v15_at (n : Fin 100000) : Read.val_main_v15 (F := Ideal) x1 (ix1 n) = Cert.Gcn.dinvR x1 n := by
  rw [Read.val_main_v15_apply, Read.val_main_v12_apply, Read.val_main_v13_apply, v10_at, v11_at, v14_at,
    Ideal.hostUnary_rsqrt_def]
  rfl

/-! ## The node an index reads, and the two factors of an edge's weight -/

theorem v16_at (e : Fin 1700000) : Read.val_main_v16 (F := Ideal) (ix1 e) = 0#32 := by
  rw [Read.val_main_v16_apply, Read.val_main_c_apply]

theorem v18_at (e : Fin 1700000) : Read.val_main_v18 (F := Ideal) (ix1 e) = 100000#32 := by
  rw [Read.val_main_v18_apply, Read.val_main_c_3_apply]

/-- The source number, increased by the number of nodes when negative. -/
theorem v20_at (e : Fin 1700000) : Read.val_main_v20 (F := Ideal) x1 (ix1 e) = Cert.Gcn.wrapIdx (Cert.Gcn.rowR x1 e) := by
  rw [Read.val_main_v20_apply, Read.val_main_v17_apply, Read.val_main_v19_apply, v3_at, v16_at, v18_at]
  rfl

theorem v21_at (e : Fin 1700000) : Read.val_main_v21 (F := Ideal) x1 (posAt e) = Cert.Gcn.wrapIdx (Cert.Gcn.rowR x1 e) := by
  rw [Read.val_main_v21_apply]
  exact (congrArg (Read.val_main_v20 (F := Ideal) x1) (col_idx e)).trans (v20_at x1 e)

/-- A lookup in a vector of 100000 entries at 1700000 positions, the position at e being the wrap of v, reads node v's entry. -/
theorem gather_vec_node {α : Type} (wf : GatherDims.WF ⟨1, ![100000]⟩ ⟨2, ![1700000, 1]⟩ ⟨1, ![1700000]⟩ [] [0] [] [0] [] 1 ![1])
    (x : (⟨1, ![100000]⟩ : Shape).Idx → α) (idx : IVec ⟨2, ![1700000, 1]⟩ 32) (e : Fin 1700000) (v : BitVec 32)
    (h : idx (posAt e) = Cert.Gcn.wrapIdx v) :
    Host.gather (vecGatherDims 100000 1700000 wf) x idx (ix1 e) = x (ix1 (Cert.Gcn.nodeOf v)) := by
  rw [gather_vec_apply (by decide)]
  refine congrArg (fun t => x (ix1 t)) (Fin.ext ?_)
  show min (idx (posAt e)).toInt.toNat (100000 - 1) = min (Cert.Gcn.wrapIdx v).toInt.toNat (100000 - 1)
  rw [h]

/-- d at the source's node. -/
theorem v22_at (e : Fin 1700000) :
    Read.val_main_v22 (F := Ideal) x1 (ix1 e) = Cert.Gcn.dinvR x1 (Cert.Gcn.nodeOf (Cert.Gcn.rowR x1 e)) := by
  unfold Read.val_main_v22
  exact (gather_vec_node Facts₀.gather_S100000_S1700000x1_S1700000_n_0_n_n_0_1_1_wf (Read.val_main_v15 (F := Ideal) x1)
    (Read.val_main_v21 (F := Ideal) x1) e _ (v21_at x1 e)).trans (v15_at x1 _)

theorem v23_at (e : Fin 1700000) : Read.val_main_v23 (F := Ideal) (ix1 e) = 0#32 := by
  rw [Read.val_main_v23_apply, Read.val_main_c_4_apply]

theorem v25_at (e : Fin 1700000) : Read.val_main_v25 (F := Ideal) (ix1 e) = 100000#32 := by
  rw [Read.val_main_v25_apply, Read.val_main_c_5_apply]

/-- The target number, increased by the number of nodes when negative. -/
theorem v27_at (e : Fin 1700000) : Read.val_main_v27 (F := Ideal) x1 (ix1 e) = Cert.Gcn.wrapIdx (Cert.Gcn.colR x1 e) := by
  rw [Read.val_main_v27_apply, Read.val_main_v24_apply, Read.val_main_v26_apply, v6_at, v23_at, v25_at]
  rfl

theorem v28_at (e : Fin 1700000) : Read.val_main_v28 (F := Ideal) x1 (posAt e) = Cert.Gcn.wrapIdx (Cert.Gcn.colR x1 e) := by
  rw [Read.val_main_v28_apply]
  exact (congrArg (Read.val_main_v27 (F := Ideal) x1) (col_idx e)).trans (v27_at x1 e)

/-- d at the target's node. -/
theorem v29_at (e : Fin 1700000) :
    Read.val_main_v29 (F := Ideal) x1 (ix1 e) = Cert.Gcn.dinvR x1 (Cert.Gcn.nodeOf (Cert.Gcn.colR x1 e)) := by
  unfold Read.val_main_v29
  exact (gather_vec_node Facts₀.gather_S100000_S1700000x1_S1700000_n_0_n_n_0_1_1_wf (Read.val_main_v15 (F := Ideal) x1)
    (Read.val_main_v28 (F := Ideal) x1) e _ (v28_at x1 e)).trans (v15_at x1 _)

/-- An edge's weight: the product of d at its two ends. -/
theorem v30_at (e : Fin 1700000) : Read.val_main_v30 (F := Ideal) x1 (ix1 e) = Cert.Gcn.normR x1 e := by
  rw [Read.val_main_v30_apply, v22_at, v29_at, Ideal.mulf_def]
  rfl

/-! ## The transformed features, looked up at the source and scaled -/

/-- h = x · W. -/
theorem v31_at (n : Fin 100000) (k : Fin 128) :
    Read.val_main_v31 (F := Ideal) x0 x2 (ix2 n k) = Cert.Gcn.hmat x0 x2 n k := by
  rw [Read.val_main_v31_apply]
  unfold Cert.Gcn.hmat
  refine Finset.sum_congr rfl fun j _ => ?_
  have hl : Read.lidx_main_v31 (ix2 n k) j = ix2 n j := by
    funext a
    match a with
    | ⟨0, _⟩ => rfl
    | ⟨1, _⟩ => rfl
  have hr : Read.ridx_main_v31 (ix2 n k) j = ix2 j k := by
    funext a
    match a with
    | ⟨0, _⟩ => rfl
    | ⟨1, _⟩ => rfl
  rw [hl, hr]

theorem v32_at (e : Fin 1700000) : Read.val_main_v32 (F := Ideal) (ix1 e) = 0#32 := by
  rw [Read.val_main_v32_apply, Read.val_main_c_6_apply]

theorem v34_at (e : Fin 1700000) : Read.val_main_v34 (F := Ideal) (ix1 e) = 100000#32 := by
  rw [Read.val_main_v34_apply, Read.val_main_c_7_apply]

theorem v36_at (e : Fin 1700000) : Read.val_main_v36 (F := Ideal) x1 (ix1 e) = Cert.Gcn.wrapIdx (Cert.Gcn.rowR x1 e) := by
  rw [Read.val_main_v36_apply, Read.val_main_v33_apply, Read.val_main_v35_apply, v3_at, v32_at, v34_at]
  rfl

theorem v37_at (e : Fin 1700000) : Read.val_main_v37 (F := Ideal) x1 (rowAt e) = Cert.Gcn.wrapIdx (Cert.Gcn.rowR x1 e) := by
  rw [Read.val_main_v37_apply]
  exact (congrArg (Read.val_main_v36 (F := Ideal) x1) (col_idx e)).trans (v36_at x1 e)

/-- The transformed features at the source's node. -/
theorem v38_at (e : Fin 1700000) (k : Fin 128) :
    Read.val_main_v38 (F := Ideal) x0 x1 x2 (ix2 e k) = Cert.Gcn.hmat x0 x2 (Cert.Gcn.nodeOf (Cert.Gcn.rowR x1 e)) k := by
  unfold Read.val_main_v38
  show Host.gather (rowGatherDims 100000 1700000 128 Facts₀.gather_S100000x128_S1700000x1_S1700000x128_1_0_n_n_0_1_1128_wf)
    (Read.val_main_v31 (F := Ideal) x0 x2) (Read.val_main_v37 (F := Ideal) x1) (ix2 e k) = _
  rw [gather_rows_apply (by decide)]
  refine Eq.trans ?_ (v31_at x0 x2 _ k)
  refine congrArg (fun t => Read.val_main_v31 (F := Ideal) x0 x2 (ix2 t k)) (Fin.ext ?_)
  show min (Read.val_main_v37 (F := Ideal) x1 (rowAt e)).toInt.toNat (100000 - 1)
    = min (Cert.Gcn.wrapIdx (Cert.Gcn.rowR x1 e)).toInt.toNat (100000 - 1)
  rw [v37_at]

/-- The weight, repeated along the feature axis. -/
theorem v40_at (e : Fin 1700000) (k : Fin 128) : Read.val_main_v40 (F := Ideal) x1 (ix2 e k) = Cert.Gcn.normR x1 e := by
  rw [Read.val_main_v40_apply, Read.val_main_v39_apply]
  refine Eq.trans (congrArg (Read.val_main_v30 (F := Ideal) x1) ?_) (v30_at x1 e)
  funext a
  match a with
  | ⟨0, _⟩ => rfl

/-- An edge's message. -/
theorem v41_at (e : Fin 1700000) (k : Fin 128) :
    Read.val_main_v41 (F := Ideal) x0 x1 x2 (ix2 e k)
      = Cert.Gcn.hmat x0 x2 (Cert.Gcn.nodeOf (Cert.Gcn.rowR x1 e)) k * Cert.Gcn.normR x1 e := by
  rw [Read.val_main_v41_apply, v38_at, v40_at, Ideal.mulf_def]

/-! ## The sum over the edges into a node, the bias and the activation -/

theorem v42_at (n : Fin 100000) (k : Fin 128) : Read.val_main_v42 (F := Ideal) (ix2 n k) = Cert.Gcn.zero := by
  rw [Read.val_main_v42_apply, Read.val_main_cst_8_apply, Ideal.ofBits_def]

theorem v43_at (e : Fin 1700000) : Read.val_main_v43 (F := Ideal) x1 (rowAt e) = Cert.Gcn.colR x1 e := by
  rw [Read.val_main_v43_apply]
  exact (congrArg (Read.val_main_v6 (F := Ideal) x1) (col_idx e)).trans (v6_at x1 e)

/-- The messages summed over the extended edges whose target is n. -/
theorem v44_at (n : Fin 100000) (k : Fin 128) :
    Read.val_main_v44 (F := Ideal) x0 x1 x2 (ix2 n k) = Cert.Gcn.aggR x0 x1 x2 n k := by
  unfold Read.val_main_v44 Cert.Gcn.aggR
  refine (scatterAdd_rows_apply Facts₀.scatter_S100000x128_S1700000x1_S1700000x128_1_0_0_1_wf (Read.val_main_v43 (F := Ideal) x1)
    (Read.val_main_v42 (F := Ideal)) (Read.val_main_v41 (F := Ideal) x0 x1 x2) n k).trans ?_
  rw [v42_at]
  simp only [v43_at, v41_at]

/-- The bias, repeated along the node axis. -/
theorem v46_at (n : Fin 100000) (k : Fin 128) : Read.val_main_v46 (F := Ideal) x3 (ix2 n k) = x3 (ix1 k) := by
  rw [Read.val_main_v46_apply, Read.val_main_v45_apply]
  refine congrArg x3 ?_
  funext a
  match a with
  | ⟨0, _⟩ => rfl

theorem v47_at (n : Fin 100000) (k : Fin 128) :
    Read.val_main_v47 (F := Ideal) x0 x1 x2 x3 (ix2 n k) = Cert.Gcn.preR x0 x1 x2 x3 n k := by
  rw [Read.val_main_v47_apply, v44_at, v46_at, Ideal.addf_def]
  rfl

theorem v48_at (n : Fin 100000) (k : Fin 128) : Read.val_main_v48 (F := Ideal) (ix2 n k) = Cert.Gcn.zero := by
  rw [Read.val_main_v48_apply, Read.val_main_cst_9_apply, Ideal.ofBits_def]

/-- The slope, repeated along the node axis. -/
theorem v51_at (n : Fin 100000) (k : Fin 128) : Read.val_main_v51 (F := Ideal) x4 (ix2 n k) = x4 (ix1 k) := by
  rw [Read.val_main_v51_apply, Read.val_main_v50_apply]
  refine congrArg x4 ?_
  funext a
  match a with
  | ⟨0, _⟩ => rfl

/-- THE REFERENCE'S RESULT at (n, k) is the reference form of the graph convolution. -/
theorem ref_eq_outR (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 : (⟨S128, .f32⟩ : BufTy).Contents (Elt Ideal)) (n : Fin 100000) (k : Fin 128) :
    Cert.ReferenceIdeal.Read.val_main_v53 (F := Ideal) x0 x1 x2 x3 x4 (ix2 n k) = Cert.Gcn.outR x0 x1 x2 x3 x4 n k := by
  rw [Read.val_main_v53_apply, Read.val_main_v49_apply, Read.val_main_v52_apply, v47_at, v48_at, v51_at, Ideal.mulf_def]
  rfl

end Cert.Gcn.Ref

end
-- ==== Proof.LibAggregateLinear.lean ====
/-
  A linear map commutes with a weighted aggregation, on the extended reals.

  Aggregating rows first and applying a matrix afterwards,
      ∑ k, (∑ e ∈ hits, x e k · a e) · w k ,
  is applying the matrix to every row first and aggregating afterwards,
      ∑ e ∈ hits, (∑ k, x e k · w k) · a e ,
  when every `x e k`, `w k` and `a e` is a real number: over ℝ this is distributivity and an exchange of the two finite sums.
  (With an infinite entry the two sides can differ: distributivity fails at `⊤ + ⊥`.)  The selection of the rows that hit is an
  `if` inside the sum, as a scatter-add read at an index leaves it.

  Also here: the coercion ℝ → EReal commutes with finite sums, and the reciprocal square root of a positive extended real is
  a real number (`⊤ ↦ 0`), so that `if 0 < y then rsqrt (max y ε) else 0` is real for every `y` and `ε`.
-/
import Idealize.ShloMosaic.PureOps.Ideal

noncomputable section

open scoped BigOperators

namespace Idealize.ShloMosaic.AggregateLinear

/-- The coercion of a finite real sum is the sum of the coercions. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem sum_isReal {ι : Type*} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := ih fun i hi => hf i (Finset.mem_insert_of_mem hi)
    obtain ⟨q, hq⟩ := hf a (Finset.mem_insert_self a s)
    exact ⟨q + r, by rw [Finset.sum_insert ha, hr, hq, EReal.coe_add]⟩

/-- AGGREGATE THEN MAP = MAP THEN AGGREGATE, when every entry is real. -/
theorem aggregate_map_comm {ι κ : Type*} [Fintype ι] [Fintype κ] (x : ι → κ → EReal) (w : κ → EReal) (a : ι → EReal)
    (p : ι → Prop) [DecidablePred p]
    (hx : ∀ e k, ∃ r : ℝ, x e k = r) (hw : ∀ k, ∃ r : ℝ, w k = r) (ha : ∀ e, ∃ r : ℝ, a e = r) :
    ∑ k, (∑ e, if p e then x e k * a e else 0) * w k = ∑ e, if p e then (∑ k, x e k * w k) * a e else 0 := by
  choose X hX using hx
  choose W hW using hw
  choose A hA using ha
  have hl : ∀ k, (∑ e, if p e then x e k * a e else 0) * w k
      = (((∑ e, if p e then X e k * A e else 0) * W k : ℝ) : EReal) := by
    intro k
    rw [EReal.coe_mul, coe_finset_sum, hW]
    refine congrArg (· * (W k : EReal)) (Finset.sum_congr rfl fun e _ => ?_)
    by_cases h : p e
    · rw [if_pos h, if_pos h, hX, hA, EReal.coe_mul]
    · rw [if_neg h, if_neg h, EReal.coe_zero]
  have hr : ∀ e, (if p e then (∑ k, x e k * w k) * a e else 0)
      = (((if p e then (∑ k, X e k * W k) * A e else 0 : ℝ)) : EReal) := by
    intro e
    by_cases h : p e
    · rw [if_pos h, if_pos h, EReal.coe_mul, coe_finset_sum, hA]
      refine congrArg (· * (A e : EReal)) (Finset.sum_congr rfl fun k _ => ?_)
      rw [hX, hW, EReal.coe_mul]
    · rw [if_neg h, if_neg h, EReal.coe_zero]
  simp only [hl, hr, ← coe_finset_sum]
  refine congrArg (fun r : ℝ => (r : EReal)) ?_
  simp only [Finset.sum_mul]
  rw [Finset.sum_comm]
  refine Finset.sum_congr rfl fun e _ => ?_
  by_cases h : p e
  · simp only [if_pos h]
    refine Finset.sum_congr rfl fun k _ => ?_
    ring
  · simp only [if_neg h, zero_mul, Finset.sum_const_zero]

/-- The reciprocal square root of a positive extended real is a real number (`⊤ ↦ 0`). -/
theorem rsqrt_isReal_of_pos (y : EReal) (h : 0 < y) : ∃ r : ℝ, Ideal.rsqrt y = r := by
  induction y using EReal.rec with
  | bot => exact absurd h (not_lt.mpr bot_le)
  | top => exact ⟨0, by rw [Ideal.rsqrt_top, EReal.coe_zero]⟩
  | coe r =>
    have hr : 0 < r := EReal.coe_pos.mp h
    refine ⟨(Real.sqrt r)⁻¹, ?_⟩
    rw [Ideal.rsqrt_coe, if_neg (not_lt.mpr hr.le), if_neg hr.ne']

end Idealize.ShloMosaic.AggregateLinear

end
-- ==== Proof.Bridge.lean ====
/-
  The reference's form of the graph convolution equals the kernel's form, when the features and the weight are real.

  Three facts carry it.  (1) The extended edge list is the edge list followed by one self loop per node, so a sum over it
  splits into the sum over the edges plus the sum over the self loops, and the self loops into node `n` are exactly the one
  loop `n → n`: the reference's degree is the kernel's, `#{e : col e = n} + 1`.  (2) That degree is a real number ≥ 1, so
  the reference's guard `deg > 0` always holds and both programs use the same real factor `d n = deg n ^ (-1/2)`.  (3) An
  edge counted into node `n` has target number `n` itself, in range, so the lookup of its target's factor reads `d n`; then
      ∑_{e → n} h (row e) · (d (row e) · d n) + h n · (d n · d n) = d n · (∑_{e → n} h (row e) · d (row e) + h n · d n),
  which is distributivity — true over the reals, and the reason finiteness of `x` and `W` is needed (`h` is then real).
-/
import proofs.«101936_j37598143709729_2_alg».proof.Proof.Spec
import proofs.«101936_j37598143709729_2_alg».proof.Proof.LibAggregateLinear
import proofs.«101936_j37598143709729_2_alg».proof.Proof.LibVecConcat

noncomputable section

open scoped BigOperators

namespace Cert.Gcn

open Idealize.ShloMosaic Idealize.ShloMosaic.ValueIdx Idealize.ShloMosaic.AggregateLinear Idealize.ShloMosaic.VecConcat

/-! ## The literals and the node numbers -/

theorem one_eq : one = 1 := by
  simp [Ideal.ofBits, Ideal.ieee, -EReal.coe_mul]; norm_num

theorem zero_eq : zero = 0 := Ideal.ofBits_zero_f32

/-- A node number below 100000 written in 32 bits reads back, signed, as itself. -/
theorem toInt_ofNat_lt (q : Nat) (hq : q < 100000) : (BitVec.ofNat 32 q).toInt = (q : Int) := by
  rw [BitVec.toInt_ofNat']
  exact Int.bmod_eq_of_le (by omega) (by omega)

/-- A number that reads, signed, as the node `n` looks up node `n`: nothing to wrap, nothing to clamp. -/
theorem nodeOf_of_toInt (v : BitVec 32) (n : Fin 100000) (h : v.toInt = (n.val : Int)) : nodeOf v = n := by
  have hn := n.isLt
  have hslt : v.slt 0#32 = false := by
    rw [BitVec.slt_eq_decide, h, BitVec.toInt_zero]
    exact decide_eq_false (by omega)
  have hw : wrapIdx v = v := by
    unfold wrapIdx IntOp.cmpi
    simp [hslt, Scalar.select]
  apply Fin.ext
  show min (wrapIdx v).toInt.toNat (100000 - 1) = n.val
  rw [hw, h]
  omega

theorem nodeOf_ofNat (q : Fin 100000) : nodeOf (BitVec.ofNat 32 q.val) = q :=
  nodeOf_of_toInt _ q (toInt_ofNat_lt q.val q.isLt)

/-! ## The law -/

/-- The self loop's term folded into the factor: distributivity over the reals. -/
theorem fold_self_loop {ι ν : Type*} [Fintype ι] (p : ι → Prop) [DecidablePred p] (r : ι → ν) (h d : ν → EReal) (n : ν)
    (hh : ∀ v, ∃ q : ℝ, h v = q) (hd : ∀ v, ∃ q : ℝ, d v = q) :
    0 + ((∑ e, if p e then h (r e) * (d (r e) * d n) else 0) + h n * (d n * d n))
      = d n * ((0 + ∑ e, if p e then h (r e) * d (r e) else 0) + h n * d n) := by
  choose H hH using hh
  choose D hD using hd
  simp only [hH, hD]
  have e1 : ∀ e, (if p e then (H (r e) : EReal) * ((D (r e) : EReal) * (D n : EReal)) else 0)
      = ((if p e then H (r e) * (D (r e) * D n) else 0 : ℝ) : EReal) := by
    intro e; by_cases hp : p e
    · rw [if_pos hp, if_pos hp, EReal.coe_mul, EReal.coe_mul]
    · rw [if_neg hp, if_neg hp, EReal.coe_zero]
  have e2 : ∀ e, (if p e then (H (r e) : EReal) * (D (r e) : EReal) else 0)
      = ((if p e then H (r e) * D (r e) else 0 : ℝ) : EReal) := by
    intro e; by_cases hp : p e
    · rw [if_pos hp, if_pos hp, EReal.coe_mul]
    · rw [if_neg hp, if_neg hp, EReal.coe_zero]
  simp only [e1, e2]
  simp only [← coe_finset_sum, ← EReal.coe_mul, ← EReal.coe_add, zero_add]
  refine congrArg (fun q : ℝ => (q : EReal)) ?_
  rw [mul_add, Finset.mul_sum]
  refine congrArg₂ (· + ·) (Finset.sum_congr rfl fun e _ => ?_) (by ring)
  by_cases hp : p e
  · simp only [if_pos hp]; ring
  · simp only [if_neg hp, mul_zero]

section Forms
variable (x : FVec Ideal ⟨2, ![100000, 256]⟩ .f32) (ei : IVec ⟨2, ![2, 1600000]⟩ 32)
  (W : FVec Ideal ⟨2, ![256, 128]⟩ .f32) (bias alpha : FVec Ideal ⟨1, ![128]⟩ .f32)

/-! ## The extended edge list -/

theorem colR_lt (p : Fin 1600000) (hp : p.val < 1700000) : colR ei ⟨p.val, hp⟩ = colOf ei p := by
  unfold colR; rw [dif_pos p.isLt]
theorem rowR_lt (p : Fin 1600000) (hp : p.val < 1700000) : rowR ei ⟨p.val, hp⟩ = rowOf ei p := by
  unfold rowR; rw [dif_pos p.isLt]
theorem colR_ge (q : Fin 100000) (hq : 1600000 + q.val < 1700000) : colR ei ⟨1600000 + q.val, hq⟩ = BitVec.ofNat 32 q.val := by
  unfold colR
  rw [dif_neg (show ¬ (1600000 + q.val < 1600000) by omega)]
  exact congrArg (BitVec.ofNat 32) (by show 1600000 + q.val - 1600000 = q.val; omega)
theorem rowR_ge (q : Fin 100000) (hq : 1600000 + q.val < 1700000) : rowR ei ⟨1600000 + q.val, hq⟩ = BitVec.ofNat 32 q.val := by
  unfold rowR
  rw [dif_neg (show ¬ (1600000 + q.val < 1600000) by omega)]
  exact congrArg (BitVec.ofNat 32) (by show 1600000 + q.val - 1600000 = q.val; omega)

/-- Among the self loops exactly the loop at `n` has target `n`. -/
theorem self_loop_sum (n : Fin 100000) (f : Fin 100000 → EReal) :
    ∑ q : Fin 100000, (if (BitVec.ofNat 32 q.val).toInt = (n.val : Int) then f q else 0) = f n := by
  have : ∀ q : Fin 100000, (if (BitVec.ofNat 32 q.val).toInt = (n.val : Int) then f q else 0) = if q = n then f q else 0 := by
    intro q
    refine if_congr ?_ rfl rfl
    rw [toInt_ofNat_lt q.val q.isLt]
    constructor
    · intro h; exact Fin.ext (by omega)
    · intro h; rw [h]
  simp only [this]
  rw [Finset.sum_ite_eq' Finset.univ n f, if_pos (Finset.mem_univ n)]

/-! ## The degree and the factor -/

theorem degR_eq (n : Fin 100000) : degR ei n = degK ei n := by
  unfold degR degK
  rw [sum_fin_split (a := 1600000) (b := 100000) (by norm_num)]
  simp only [colR_lt, colR_ge]
  rw [self_loop_sum n (fun _ => one), ← add_assoc]

/-- The degree is a real number, at least one. -/
theorem degK_real_pos (n : Fin 100000) : ∃ q : ℝ, degK ei n = q ∧ 0 < q := by
  unfold degK
  rw [zero_eq, one_eq, zero_add]
  have e : ∀ e : Fin 1600000, (if (colOf ei e).toInt = (n.val : Int) then (1 : EReal) else 0)
      = ((if (colOf ei e).toInt = (n.val : Int) then 1 else 0 : ℝ) : EReal) := by
    intro e; by_cases h : (colOf ei e).toInt = (n.val : Int)
    · rw [if_pos h, if_pos h, EReal.coe_one]
    · rw [if_neg h, if_neg h, EReal.coe_zero]
  simp only [e, ← coe_finset_sum]
  refine ⟨(∑ e : Fin 1600000, if (colOf ei e).toInt = (n.val : Int) then 1 else 0) + 1, by rw [EReal.coe_add, EReal.coe_one], ?_⟩
  have : (0 : ℝ) ≤ ∑ e : Fin 1600000, if (colOf ei e).toInt = (n.val : Int) then (1 : ℝ) else 0 :=
    Finset.sum_nonneg fun e _ => by split_ifs <;> norm_num
  linarith

theorem degK_pos (n : Fin 100000) : 0 < degK ei n := by
  obtain ⟨q, hq, hpos⟩ := degK_real_pos ei n
  rw [hq]; exact EReal.coe_pos.mpr hpos

theorem dinvK_real (n : Fin 100000) : ∃ q : ℝ, dinvK ei n = q := rsqrt_isReal_of_pos _ (degK_pos ei n)

/-- The reference's guard always holds: its factor is the kernel's. -/
theorem dinvR_eq (n : Fin 100000) : dinvR ei n = dinvK ei n := by
  unfold dinvR dinvK
  rw [degR_eq]
  have hc : Ideal.cmp .ogt (degK ei n) zero = 1#1 := by
    have hpos := degK_pos ei n
    rw [zero_eq]
    unfold Ideal.cmp
    simp [hpos]
  rw [hc, select_one]

/-! ## The transformed features are real -/

theorem hmat_real (hx : ∀ i, ∃ q : ℝ, x i = q) (hW : ∀ i, ∃ q : ℝ, W i = q) (k : Fin 128) (n : Fin 100000) :
    ∃ q : ℝ, hmat x W n k = q := by
  unfold hmat
  refine sum_isReal _ _ fun j _ => ?_
  obtain ⟨a, ha⟩ := hx (ix2 n j)
  obtain ⟨b, hb⟩ := hW (ix2 j k)
  exact ⟨a * b, by rw [ha, hb, EReal.coe_mul]⟩

/-! ## The two forms agree -/

theorem aggR_eq (hx : ∀ i, ∃ q : ℝ, x i = q) (hW : ∀ i, ∃ q : ℝ, W i = q) (n : Fin 100000) (k : Fin 128) :
    aggR x ei W n k = dinvK ei n * (aggK x ei W n k + hsK x ei W n k) := by
  unfold aggR aggK hsK
  rw [sum_fin_split (a := 1600000) (b := 100000) (by norm_num)]
  have h1 : ∀ (p : Fin 1600000) (hp : p.val < 1700000),
      (if (colR ei ⟨p.val, hp⟩).toInt = (n.val : Int) then hmat x W (nodeOf (rowR ei ⟨p.val, hp⟩)) k * normR ei ⟨p.val, hp⟩ else 0)
        = if (colOf ei p).toInt = (n.val : Int)
            then hmat x W (nodeOf (rowOf ei p)) k * (dinvK ei (nodeOf (rowOf ei p)) * dinvK ei n) else 0 := by
    intro p hp
    rw [colR_lt]
    by_cases hc : (colOf ei p).toInt = (n.val : Int)
    · rw [if_pos hc, if_pos hc]
      unfold normR
      rw [rowR_lt, colR_lt, dinvR_eq, dinvR_eq, nodeOf_of_toInt _ n hc]
    · rw [if_neg hc, if_neg hc]
  have h2 : ∀ (q : Fin 100000) (hq : 1600000 + q.val < 1700000),
      (if (colR ei ⟨1600000 + q.val, hq⟩).toInt = (n.val : Int)
          then hmat x W (nodeOf (rowR ei ⟨1600000 + q.val, hq⟩)) k * normR ei ⟨1600000 + q.val, hq⟩ else 0)
        = if (BitVec.ofNat 32 q.val).toInt = (n.val : Int) then hmat x W q k * (dinvK ei q * dinvK ei q) else 0 := by
    intro q hq
    rw [colR_ge]
    refine if_congr Iff.rfl ?_ rfl
    unfold normR
    rw [rowR_ge, colR_ge, dinvR_eq, nodeOf_ofNat]
  simp only [h1, h2]
  rw [self_loop_sum n (fun q => hmat x W q k * (dinvK ei q * dinvK ei q)), zero_eq]
  exact fold_self_loop (fun e => (colOf ei e).toInt = (n.val : Int)) (fun e => nodeOf (rowOf ei e))
    (fun v => hmat x W v k) (dinvK ei) n (hmat_real x W hx hW k) (dinvK_real ei)

/-- THE BRIDGE: the reference's formula is the kernel's, entry by entry, for real features and weight. -/
theorem outR_eq_outK (hx : ∀ i, ∃ q : ℝ, x i = q) (hW : ∀ i, ∃ q : ℝ, W i = q) (n : Fin 100000) (k : Fin 128) :
    outR x ei W bias alpha n k = outK x ei W bias alpha n k := by
  unfold outR outK preR preK
  rw [aggR_eq x ei W hx hW]

end Forms

end Cert.Gcn

end
-- ==== Proof.Finite.lean ====
/-
  From the precondition to real entries.

  The precondition is one bit: the conjunction, over the four float arguments, of "every entry's absolute value is below
  +infinity".  At the extended reals the absolute value of x is max x (-x): it is +infinity at both infinities (the lower one
  is also what a NaN pattern reads) and a real number at a real, so an entry whose absolute value is below +infinity is a real
  number.  Hence, when the bit is 1, every entry of the features and of the weight is real.
-/
import proofs.«101936_j37598143709729_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Gcn.Finite

open Idealize.ShloMosaic

/-- The shape with no axes has one index. -/
instance : Subsingleton Cert.Pre_finite_inputs.S_.Idx := ⟨fun a b => funext fun d => d.elim0⟩

/-- The pattern 0x7F800000 is +infinity. -/
theorem inf_bits : Ideal.ofBits .f32 0x7F800000#32 = (⊤ : EReal) := by
  simp [Ideal.ofBits, Ideal.ieee]

/-- An extended real whose absolute value is below +infinity is a real number. -/
theorem real_of_abs_lt (x : EReal)
    (h : Ideal.cmp .olt (max x (-x)) (Ideal.ofBits .f32 0x7F800000#32) = 1#1) : ∃ r : ℝ, x = r := by
  rw [inf_bits] at h
  have hlt : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  induction x using EReal.rec with
  | bot => exact absurd hlt (by simp)
  | coe r => exact ⟨r, rfl⟩
  | top => exact absurd hlt (by simp)

/-- One argument's test, read at an entry: the entry is real. -/
theorem entry_real {s : Shape} (a : FVec Ideal s .f32)
    (hb : Cert.Pre_finite_inputs.S_.BroadcastsInDim s (![] : Fin 0 → Fin s.rank)) (i : s.Idx)
    (h : cmpf .olt (Host.absf a)
      (broadcastInDim s ![] hb (constant (F := Ideal) Cert.Pre_finite_inputs.S_ .f32 0x7F800000#32)) i = 1#1) :
    ∃ r : ℝ, a i = r := by
  have hbc : broadcastInDim s ![] hb (constant (F := Ideal) Cert.Pre_finite_inputs.S_ .f32 0x7F800000#32) i
      = Ideal.ofBits .f32 0x7F800000#32 :=
    broadcastInDim_apply _ hb _ i (fun d => d.elim0) (fun d => d.elim0)
  have h' : Ideal.cmp .olt (max (a i) (-(a i)))
      (broadcastInDim s ![] hb (constant (F := Ideal) Cert.Pre_finite_inputs.S_ .f32 0x7F800000#32) i) = 1#1 := h
  rw [hbc] at h'
  exact real_of_abs_lt _ h'

/-- When the precondition's bit is 1, every entry of the features and of the weight is a real number. -/
theorem real_of_pre [Cert.Pre_finite_inputs.Facts]
    (a0 : FVec Ideal Cert.Pre_finite_inputs.S100000x256 .f32) (a1 : IVec Cert.Pre_finite_inputs.S2x1600000 32)
    (a2 : FVec Ideal Cert.Pre_finite_inputs.S256x128 .f32) (a3 a4 : FVec Ideal Cert.Pre_finite_inputs.S128 .f32)
    (h : Cert.Pre_finite_inputs.fn (F := Ideal) a0 a1 a2 a3 a4 = (fun _ => 1#1)) :
    (∀ i, ∃ r : ℝ, a0 i = r) ∧ (∀ i, ∃ r : ℝ, a2 i = r) := by
  have h0 := congrFun h ValueIdx.ix0
  dsimp only [Cert.Pre_finite_inputs.fn, Cert.Pre_finite_inputs.fn_part1] at h0
  obtain ⟨h13, _⟩ := IntOp.andi_eq_one.1 h0
  obtain ⟨h8, _⟩ := IntOp.andi_eq_one.1 h13
  obtain ⟨h3, h7⟩ := IntOp.andi_eq_one.1 h8
  exact ⟨fun i => entry_real a0 _ i (Host.reduce_andi_all _ _ _ _ _ h3 i),
    fun i => entry_real a2 _ i (Host.reduce_andi_all _ _ _ _ _ h7 i)⟩

end Cert.Gcn.Finite

end
-- ==== Proof.KernelRun.lean ====
/-
  The idealized kernel program's run with its final memory NAMED.

  @main is four segments: the host operations before the first pallas_call, that call (the matmul scaled by the
  degree factor), the host gather and scatter-add between the calls, and the second call (self loop, bias, activation).
  Every weakly fair execution terminates, and in the final memory every buffer that is not a staging buffer holds the
  contents the last segment boundary names (`Gen.W4`): in particular the result array `main_v25`, and the five argument
  arrays, which end as launched.  This is the launch theorem for a program of several regions applied to the generated
  segments, their thread states and their proof data, the final thread state read against the final memory.
-/
import proofs.«101936_j37598143709729_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and the final memory holds, in every buffer that
    is not a staging buffer, the last boundary's contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run, the result array and the five argument arrays read off it. -/
theorem run_result : θ_run defs (onTc (τ := τ) (main (F := F))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)
    (run_named m ρ)

end Cert.KernelIdeal.RunValue

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.KernelBodies.lean ====
/-
  The two kernel bodies' arithmetic, read at one entry of the output block.

  First body (one block of 5000 rows): the block of `x` times the whole weight, a matrix product into a zero accumulator —
  at the extended reals the plain sum over the 256 contracted positions — times the row's degree factor, broadcast along
  the 128 columns.  The two roundings to bf16 are the identity on the extended reals.

  Second body: `d · (agg + hs) + bias` with `d` the row's factor broadcast along the columns and `bias` a row broadcast
  down the rows, then `p` where `p > 0` and `alpha · p` elsewhere — the specification's activation.
-/
import proofs.«101936_j37598143709729_2_alg».proof.Proof.Gen.KernelIdeal.Skeleton
import proofs.«101936_j37598143709729_2_alg».proof.Proof.Spec
import proofs.«101936_j37598143709729_2_alg».proof.Proof.LibRank2Layout
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Bodies

open Cert.KernelIdeal Cert.KernelIdeal.Gen Idealize.ShloMosaic Idealize.ShloMosaic.ValueIdx

/-! ## The matrix product's operand indices -/

theorem lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
theorem lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The block product at (p, q): the sum over the contracted position `j` of `l (p, j) · r (j, q)`. -/
theorem matmul_block_apply (l : FVec Ideal S5000x256 .bf16) (r : FVec Ideal S256x128 .bf16) (p : Fin 5000) (q : Fin 128) :
    FloatOps.matmul dot_S5000x256_S256x128_S5000x128_1_0_0_1_n_n none l r (constant S5000x128 .f32 0x00000000#32) (ix2 p q)
      = ∑ j : Fin 256, l (ix2 p j) * r (ix2 j q) := by
  rw [Ideal.matmul_constant_zero_apply,
    ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q)
      ((ValueIdx.contrEquiv1 dot_S5000x256_S256x128_S5000x128_1_0_0_1_n_n 256 rfl rfl).symm k) = ix2 p k := funext fun a => Fin.ext (by
    match a with
    | ⟨0, _⟩ => exact lhs_0 _ _
    | ⟨1, _⟩ => exact (lhs_1 _ _).trans hk)
  have er : dot_S5000x256_S256x128_S5000x128_1_0_0_1_n_n.rhsIdx (ix2 p q)
      ((ValueIdx.contrEquiv1 dot_S5000x256_S256x128_S5000x128_1_0_0_1_n_n 256 rfl rfl).symm k) = ix2 k q := funext fun a => Fin.ext (by
    match a with
    | ⟨0, _⟩ => exact (rhs_0 _ _).trans hk
    | ⟨1, _⟩ => exact rhs_1 _ _)
  rw [el, er]

/-! ## The first body -/

/-- The first body's stored value at (p, q): the block product times the row's factor. -/
theorem pay0_apply (v0 : Vec Ideal S5000x256 .f32) (v2 : Vec Ideal S256x128 .bf16) (v5 : Vec Ideal S5000x1 .f32)
    (p : Fin 5000) (q : Fin 128) :
    k0_pay1 (F := Ideal) v0 v2 v5 (ix2 p q) = (∑ j : Fin 256, v0 (ix2 p j) * v2 (ix2 j q)) * v5 (ix2 p (0 : Fin 1)) := by
  unfold k0_pay1
  simp only [matmul, shapeCast_self]
  show FloatOps.matmul (F := Ideal) dot_S5000x256_S256x128_S5000x128_1_0_0_1_n_n none (truncf .bf16 v0 bitsLt_bf16_f32) v2
      (constant S5000x128 .f32 0x00000000#32) (ix2 p q) * broadcastTo S5000x128 v5 broadcasts_S5000x1_S5000x128 (ix2 p q) = _
  rw [matmul_block_apply, Rank2.bcastCol_apply]
  rfl

/-! ## The second body -/

/-- The second body's stored value at (p, q). -/
theorem pay1_apply (v0 : Vec Ideal S5000x128 .bf16) (v3 : Vec Ideal S5000x1 .f32) (v5 : Vec Ideal S5000x128 .f32)
    (v10 v16 : Vec Ideal S128 .f32) (p : Fin 5000) (q : Fin 128) :
    k1_pay1 (F := Ideal) v0 v3 v5 v10 v16 (ix2 p q)
      = Cert.Gcn.act (v16 (ix1 q)) (v3 (ix2 p (0 : Fin 1)) * (v5 (ix2 p q) + v0 (ix2 p q)) + v10 (ix1 q)) := by
  unfold k1_pay1
  simp only [shapeCast_self]
  show Scalar.select (FloatOps.cmpf .ogt
        (broadcastTo S5000x128 v3 broadcasts_S5000x1_S5000x128 (ix2 p q) * (v5 (ix2 p q) + v0 (ix2 p q))
          + broadcastTo S5000x128 (shapeCast S1x128 v10 shapeCasts_S128_S1x128) broadcasts_S1x128_S5000x128 (ix2 p q))
        (Ideal.ofBits .f32 0x00000000#32))
      (broadcastTo S5000x128 v3 broadcasts_S5000x1_S5000x128 (ix2 p q) * (v5 (ix2 p q) + v0 (ix2 p q))
          + broadcastTo S5000x128 (shapeCast S1x128 v10 shapeCasts_S128_S1x128) broadcasts_S1x128_S5000x128 (ix2 p q))
      (broadcastTo S5000x128 (shapeCast S1x128 v16 shapeCasts_S128_S1x128) broadcasts_S1x128_S5000x128 (ix2 p q)
        * (broadcastTo S5000x128 v3 broadcasts_S5000x1_S5000x128 (ix2 p q) * (v5 (ix2 p q) + v0 (ix2 p q))
          + broadcastTo S5000x128 (shapeCast S1x128 v10 shapeCasts_S128_S1x128) broadcasts_S1x128_S5000x128 (ix2 p q))) = _
  rw [Rank2.bcastCol_apply, Rank2.bcastRow_apply, Rank2.bcastRow_apply, shapeCast_a_1a_apply, shapeCast_a_1a_apply]
  rfl

end Cert.KernelIdeal.Bodies

end
-- ==== Proof.KernelRegions.lean ====
/-
  From blocks to arrays: what each of the two calls leaves in its result array, as one function of the arrays it finds.

  Both calls run over 20 grid points; point `t` works on rows `5000 t … 5000 t + 4999`.  Every window's block at `t` is read
  where the printed index maps put it (the row blocks at block row `t`, the weight, the bias and the slope whole), so what
  point `t` writes back is block `t` of one whole-array function — the first call's `G0` (the product with the weight, row
  `n` scaled by node `n`'s factor), the second call's `G1` (the activation of `d · (agg + hs) + bias`) —, and the 20 blocks
  cover the 100000 rows (row `r` lies in block `r / 5000`): the result array ends holding that function.  Stated for ANY
  contents `V` of the buffers at the call's entry; the run instantiates it.
-/
import proofs.«101936_j37598143709729_2_alg».proof.Proof.Gen.KernelIdeal.Frame
import proofs.«101936_j37598143709729_2_alg».proof.Proof.KernelBodies

set_option maxRecDepth 16384

noncomputable section
open scoped BigOperators
namespace Cert.KernelIdeal.Regions

open Cert.KernelIdeal Cert.KernelIdeal.Gen Cert.KernelIdeal.Bodies
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The row of the array that row `p` of block `t` is. -/
abbrev rowAt (t : Nat) (ht : t < 20) (p : Fin 5000) : Fin 100000 := ⟨t * 5000 + p.val, by have := p.isLt; omega⟩

/-! ## The first call -/

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt0 (t : Fin cfg0.N) : t.val < 20 := lt_of_lt_of_eq t.isLt N_0

def g0 (a0 : S100000x256.Idx → EReal) (a1 : S256x128.Idx → EReal) (a2 : S100000x1.Idx → EReal) (n : Fin 100000) (k : Fin 128) : EReal :=
  (∑ j : Fin 256, a0 (ix2 n j) * a1 (ix2 j k)) * a2 (ix2 n (0 : Fin 1))

def G0 (a0 : S100000x256.Idx → EReal) (a1 : S256x128.Idx → EReal) (a2 : S100000x1.Idx → EReal) : S100000x128.Idx → EReal :=
  fun i => g0 a0 a1 a2 (i 0) (i 1)

theorem read0_0 (c : Dev nD) (t : Fin cfg0.N) (p : Fin 5000) (j : Fin 256) :
    iblk0 V c 0 t (ix2 p j) = V c main_arg0 (ix2 (rowAt t.val (lt0 t) p) j) := by
  show V c main_arg0 (((cfg0.win 0).blk t).view.emb (ix2 p j)) = _
  refine congrArg (V c main_arg0) ?_
  obtain ⟨e0, e1, -⟩ := idx_facts0 t
  funext a; apply Fin.ext
  match a with
  | ⟨0, _⟩ => show win0_0.index t (0 : Fin 2) * 5000 + 1 * p.val = t.val * 5000 + p.val; omega
  | ⟨1, _⟩ => show win0_0.index t (1 : Fin 2) * 256 + 1 * j.val = j.val; omega

theorem read0_1 (c : Dev nD) (t : Fin cfg0.N) (j : Fin 256) (q : Fin 128) :
    iblk0 V c 1 t (ix2 j q) = V c main_v12 (ix2 j q) := by
  show V c main_v12 (((cfg0.win 1).blk t).view.emb (ix2 j q)) = _
  refine congrArg (V c main_v12) ?_
  obtain ⟨-, -, e2, e3, -⟩ := idx_facts0 t
  funext a; apply Fin.ext
  match a with
  | ⟨0, _⟩ => show win0_1.index t (0 : Fin 2) * 256 + 1 * j.val = j.val; omega
  | ⟨1, _⟩ => show win0_1.index t (1 : Fin 2) * 128 + 1 * q.val = q.val; omega

theorem read0_2 (c : Dev nD) (t : Fin cfg0.N) (p : Fin 5000) (z : Fin 1) :
    iblk0 V c 2 t (ix2 p z) = V c main_v11 (ix2 (rowAt t.val (lt0 t) p) (0 : Fin 1)) := by
  show V c main_v11 (((cfg0.win 2).blk t).view.emb (ix2 p z)) = _
  refine congrArg (V c main_v11) ?_
  obtain ⟨-, -, -, -, e4, e5, -⟩ := idx_facts0 t
  funext a; apply Fin.ext
  match a with
  | ⟨0, _⟩ => show win0_2.index t (0 : Fin 2) * 5000 + 1 * p.val = t.val * 5000 + p.val; omega
  | ⟨1, _⟩ => show win0_2.index t (1 : Fin 2) * 1 + 1 * z.val = 0; have := z.isLt; omega

theorem emb0_3 (t : Fin cfg0.N) (p : Fin 5000) (q : Fin 128) :
    ((cfg0.win 3).blk t).view.emb (ix2 p q) = ix2 (rowAt t.val (lt0 t) p) q := by
  obtain ⟨-, -, -, -, -, -, e6, e7⟩ := idx_facts0 t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

theorem flushed0_eq (c : Dev nD) (t : Fin cfg0.N) :
    (dat0 (F := Ideal) V c).flushed 3 t
      = ((cfg0.win 3).blk t).view.read (Elt Ideal) (G0 (V c main_arg0) (V c main_v12) (V c main_v11)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S5000x1) hz]
  funext y
  obtain ⟨p, q, rfl⟩ : ∃ (p : Fin 5000) (q : Fin 128), y = ix2 p q := ⟨y 0, y 1, eq_ix2 y⟩
  show k0_pay1 (iblk0 V c 0 t) (iblk0 V c 1 t) (iblk0 V c 2 t) (ix2 p q)
    = G0 (V c main_arg0) (V c main_v12) (V c main_v11) (((cfg0.win 3).blk t).view.emb (ix2 p q))
  refine (pay0_apply _ _ _ p q).trans ?_
  rw [emb0_3]
  show _ = g0 (V c main_arg0) (V c main_v12) (V c main_v11) (rowAt t.val (lt0 t) p) q
  unfold g0
  exact congrArg₂ (· * ·) (Finset.sum_congr rfl fun j _ => congrArg₂ (· * ·) (read0_0 V c t p j) (read0_1 V c t j q))
    (read0_2 V c t p 0)

theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v13).slice (win0_3.rect t)).set ↔ _
  rw [View.set_slice_whole, Rect.mem_set_unit]
  exact Iff.rfl

theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 5000 < cfg0.N := by rw [show cfg0.N = 20 from N_0]; omega
  refine ⟨⟨(i 0).val / 5000, ht⟩, flush0_3 _, ?_⟩
  rw [mem_blk0]
  obtain ⟨-, -, -, -, -, -, e6, e7⟩ := idx_facts0 ⟨(i 0).val / 5000, ht⟩
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e7]; omega

/-- The first call's result array: the product of `x` and the weight, row `n` scaled by the factor of node `n`. -/
theorem final0 (c : Dev nD) :
    (dat0 (F := Ideal) V c).arrAt 3 cfg0.N = G0 (V c main_arg0) (V c main_v12) (V c main_v11) :=
  (dat0 V c).arrAt_eq_of_cover 3 _ (fun t _ => flushed0_eq V c t) cover0

/-! ## The second call -/

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0 ∧ win1_4.index t (0 : Fin 1) = 0
    ∧ win1_5.index t (0 : Fin 2) = t.val ∧ win1_5.index t (1 : Fin 2) = 0 :=
  (by decide +kernel : ∀ t : Fin grid1.N, _)

theorem lt1 (t : Fin cfg1.N) : t.val < 20 := lt_of_lt_of_eq t.isLt N_1

def g1 (agg : S100000x128.Idx → EReal) (hs : S100000x128.Idx → EReal) (dinv : S100000x1.Idx → EReal)
    (b a : S128.Idx → EReal) (n : Fin 100000) (k : Fin 128) : EReal :=
  Cert.Gcn.act (a (ix1 k)) (dinv (ix2 n (0 : Fin 1)) * (agg (ix2 n k) + hs (ix2 n k)) + b (ix1 k))

def G1 (agg : S100000x128.Idx → EReal) (hs : S100000x128.Idx → EReal) (dinv : S100000x1.Idx → EReal)
    (b a : S128.Idx → EReal) : S100000x128.Idx → EReal :=
  fun i => g1 agg hs dinv b a (i 0) (i 1)

theorem read1_0 (c : Dev nD) (t : Fin cfg1.N) (p : Fin 5000) (q : Fin 128) :
    iblk1 V c 0 t (ix2 p q) = V c main_v24 (ix2 (rowAt t.val (lt1 t) p) q) := by
  show V c main_v24 (((cfg1.win 0).blk t).view.emb (ix2 p q)) = _
  refine congrArg (V c main_v24) ?_
  obtain ⟨e0, e1, -⟩ := idx_facts1 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

theorem read1_1 (c : Dev nD) (t : Fin cfg1.N) (p : Fin 5000) (q : Fin 128) :
    iblk1 V c 1 t (ix2 p q) = V c main_v13 (ix2 (rowAt t.val (lt1 t) p) q) := by
  show V c main_v13 (((cfg1.win 1).blk t).view.emb (ix2 p q)) = _
  refine congrArg (V c main_v13) ?_
  obtain ⟨-, -, e2, e3, -⟩ := idx_facts1 t
  funext a; apply Fin.ext
  match a with
  | ⟨0, _⟩ => show win1_1.index t (0 : Fin 2) * 5000 + 1 * p.val = t.val * 5000 + p.val; omega
  | ⟨1, _⟩ => show win1_1.index t (1 : Fin 2) * 128 + 1 * q.val = q.val; omega

theorem read1_2 (c : Dev nD) (t : Fin cfg1.N) (p : Fin 5000) (z : Fin 1) :
    iblk1 V c 2 t (ix2 p z) = V c main_v11 (ix2 (rowAt t.val (lt1 t) p) (0 : Fin 1)) := by
  show V c main_v11 (((cfg1.win 2).blk t).view.emb (ix2 p z)) = _
  refine congrArg (V c main_v11) ?_
  obtain ⟨-, -, -, -, e4, e5, -⟩ := idx_facts1 t
  funext a; apply Fin.ext
  match a with
  | ⟨0, _⟩ => show win1_2.index t (0 : Fin 2) * 5000 + 1 * p.val = t.val * 5000 + p.val; omega
  | ⟨1, _⟩ => show win1_2.index t (1 : Fin 2) * 1 + 1 * z.val = 0; have := z.isLt; omega

theorem read1_3 (c : Dev nD) (t : Fin cfg1.N) (q : Fin 128) :
    iblk1 V c 3 t (ix1 q) = V c main_arg3 (ix1 q) := by
  show V c main_arg3 (((cfg1.win 3).blk t).view.emb (ix1 q)) = _
  refine congrArg (V c main_arg3) ?_
  obtain ⟨-, -, -, -, -, -, e6, -⟩ := idx_facts1 t
  funext a; apply Fin.ext
  match a with
  | ⟨0, _⟩ => show win1_3.index t (0 : Fin 1) * 128 + 1 * q.val = q.val; omega

theorem read1_4 (c : Dev nD) (t : Fin cfg1.N) (q : Fin 128) :
    iblk1 V c 4 t (ix1 q) = V c main_arg4 (ix1 q) := by
  show V c main_arg4 (((cfg1.win 4).blk t).view.emb (ix1 q)) = _
  refine congrArg (V c main_arg4) ?_
  obtain ⟨-, -, -, -, -, -, -, e7, -⟩ := idx_facts1 t
  funext a; apply Fin.ext
  match a with
  | ⟨0, _⟩ => show win1_4.index t (0 : Fin 1) * 128 + 1 * q.val = q.val; omega

theorem emb1_5 (t : Fin cfg1.N) (p : Fin 5000) (q : Fin 128) :
    ((cfg1.win 5).blk t).view.emb (ix2 p q) = ix2 (rowAt t.val (lt1 t) p) q := by
  obtain ⟨-, -, -, -, -, -, -, -, e8, e9⟩ := idx_facts1 t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

theorem flushed1_eq (c : Dev nD) (t : Fin cfg1.N) :
    (dat1 (F := Ideal) V c).flushed 5 t
      = ((cfg1.win 5).blk t).view.read (Elt Ideal)
          (G1 (V c main_v24) (V c main_v13) (V c main_v11) (V c main_arg3) (V c main_arg4)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S128) hz1]
  funext y
  obtain ⟨p, q, rfl⟩ : ∃ (p : Fin 5000) (q : Fin 128), y = ix2 p q := ⟨y 0, y 1, eq_ix2 y⟩
  show k1_pay1 (iblk1 V c 1 t) (iblk1 V c 2 t) (iblk1 V c 0 t) (iblk1 V c 3 t) (iblk1 V c 4 t) (ix2 p q)
    = G1 (V c main_v24) (V c main_v13) (V c main_v11) (V c main_arg3) (V c main_arg4) (((cfg1.win 5).blk t).view.emb (ix2 p q))
  refine (pay1_apply _ _ _ _ _ p q).trans ?_
  rw [emb1_5]
  show _ = g1 (V c main_v24) (V c main_v13) (V c main_v11) (V c main_arg3) (V c main_arg4) (rowAt t.val (lt1 t) p) q
  unfold g1
  rw [read1_0 V c t p q, read1_1 V c t p q, read1_2 V c t p 0, read1_3 V c t q, read1_4 V c t q]

theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v25).slice (win1_5.rect t)).set ↔ _
  rw [View.set_slice_whole, Rect.mem_set_unit]
  exact Iff.rfl

theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < cfg1.N := by rw [show cfg1.N = 20 from N_1]; omega
  refine ⟨⟨(i 0).val / 5000, ht⟩, flush1_5 _, ?_⟩
  rw [mem_blk1]
  obtain ⟨-, -, -, -, -, -, -, -, e8, e9⟩ := idx_facts1 ⟨(i 0).val / 5000, ht⟩
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e9]; omega

/-- The second call's result array: the activation of `d · (agg + hs) + bias`, entry by entry. -/
theorem final1 (c : Dev nD) :
    (dat1 (F := Ideal) V c).arrAt 5 cfg1.N
      = G1 (V c main_v24) (V c main_v13) (V c main_v11) (V c main_arg3) (V c main_arg4) :=
  (dat1 V c).arrAt_eq_of_cover 5 _ (fun t _ => flushed1_eq V c t) cover1

end Cert.KernelIdeal.Regions
end
-- ==== Proof.KernelHost.lean ====
/-
  The host operations around the two calls, as functions of what they read.

  Before the first call: the edge list's two rows as vectors, the degree (ones scatter-added by target into zeros, plus one),
  its inverse square root as a column, and the weight rounded to bf16 (the identity on the extended reals).  Between the
  calls: the first call's result gathered at the edges' sources (a negative source number first increased by the number of
  nodes) and scatter-added by target into zeros.  Each buffer a call reads holds, after the host operations in front of
  it, the named term of the buffers they read, whatever the contents `W` before them; buffers they do not write keep theirs.
-/
import proofs.«101936_j37598143709729_2_alg».proof.Proof.Gen.KernelIdeal.Frame
import Idealize.ShloMosaic.Lib.StableHlo.Run
import Idealize.ShloMosaic.PureOps.Ideal.Laws

set_option maxRecDepth 16384

noncomputable section
namespace Cert.KernelIdeal.HostOps

open Cert.KernelIdeal Cert.KernelIdeal.Gen
open Idealize.ShloMosaic Idealize.ShloMosaic.TcCoe Idealize.ShloMosaic.StableHlo
open Idealize.SL Idealize.SL.Sem

/-- The edge list's second row (the targets) as a vector. -/
def colVec (a1 : IVec S2x1600000 32) : IVec S1600000 32 :=
  shapeCast S1600000 (extractStridedSlice S1x1600000 ![1, 0] a1 slices_S2x1600000_S1x1600000_1_0) shapeCasts_S1x1600000_S1600000
/-- The edge list's first row (the sources) as a vector. -/
def rowVec (a1 : IVec S2x1600000 32) : IVec S1600000 32 :=
  shapeCast S1600000 (extractStridedSlice S1x1600000 ![0, 0] a1 slices_S2x1600000_S1x1600000_0_0) shapeCasts_S1x1600000_S1600000

/-- Zeros, one per node. -/
def zerosN : FVec Ideal S100000 .f32 := broadcastInDim S100000 ![] bcast_S_S100000 (constant S_ .f32 0x00000000#32)
/-- Ones, one per node. -/
def onesN : FVec Ideal S100000 .f32 := broadcastInDim S100000 ![] bcast_S_S100000 (constant S_ .f32 0x3F800000#32)
/-- Ones, one per edge. -/
def onesE : FVec Ideal S1600000 .f32 := broadcastInDim S1600000 ![] bcast_S_S1600000 (constant S_ .f32 0x3F800000#32)
/-- A vector of node numbers, one per edge, as a column of scatter or gather positions. -/
def asCol (v : IVec S1600000 32) : IVec S1600000x1 32 := broadcastInDim S1600000x1 ![0] bcast_S1600000_S1600000x1_0 v

/-- The degree: ones scatter-added by target into zeros, plus one. -/
def degVec (a1 : IVec S2x1600000 32) : FVec Ideal S100000 .f32 :=
  addf (Host.scatterAdd scatter_S100000_S1600000x1_S1600000_n_0_0_1 zerosN (asCol (colVec a1)) onesE) onesN
/-- The factor `deg ^ (-1/2)` as a column. -/
def dinvCol (a1 : IVec S2x1600000 32) : FVec Ideal S100000x1 .f32 :=
  shapeCast S100000x1 (Host.rsqrt (degVec a1)) shapeCasts_S100000_S100000x1

/-- Zeros, one per node and channel. -/
def zerosNC : FVec Ideal S100000x128 .f32 := broadcastInDim S100000x128 ![] bcast_S_S100000x128 (constant S_ .f32 0x00000000#32)
/-- The source numbers, a negative one increased by the number of nodes. -/
def wrapVec (row : IVec S1600000 32) : IVec S1600000 32 :=
  select (cmpi .slt row (broadcastInDim S1600000 ![] bcast_S_S1600000 (constantI S_ 32 0#32)))
    (addi row (broadcastInDim S1600000 ![] bcast_S_S1600000 (constantI S_ 32 100000#32))) row
/-- The scaled features gathered at the wrapped sources, one row per edge. -/
def gathered (row : IVec S1600000 32) (hs : FVec Ideal S100000x128 .bf16) : FVec Ideal S1600000x128 .f32 :=
  extf .f32 (Host.gather gather_S100000x128_S1600000x1_S1600000x128_1_0_n_n_0_1_1128 hs (asCol (wrapVec row))) bitsLt_bf16_f32
/-- The gathered rows scatter-added by target into zeros. -/
def aggArr (col row : IVec S1600000 32) (hs : FVec Ideal S100000x128 .bf16) : FVec Ideal S100000x128 .f32 :=
  Host.scatterAdd scatter_S100000x128_S1600000x1_S1600000x128_1_0_0_1 zerosNC (asCol col) (gathered row hs)

variable (W : Valuation τ sig (Elt Ideal))

theorem after0_v11 : StableHlo.after (hostOps0 (F := Ideal)) W (Proc.devRef .tc main_v11) = dinvCol (W (Proc.devRef .tc main_arg1)) := by
  after_results <;> rfl
theorem after0_v12 : StableHlo.after (hostOps0 (F := Ideal)) W (Proc.devRef .tc main_v12)
    = (truncf .bf16 (W (Proc.devRef .tc main_arg2)) bitsLt_bf16_f32 : FVec Ideal S256x128 .bf16) := by
  after_results <;> rfl
theorem after0_v1 : StableHlo.after (hostOps0 (F := Ideal)) W (Proc.devRef .tc main_v1) = rowVec (W (Proc.devRef .tc main_arg1)) := by
  after_results <;> rfl
theorem after0_v3 : StableHlo.after (hostOps0 (F := Ideal)) W (Proc.devRef .tc main_v3) = colVec (W (Proc.devRef .tc main_arg1)) := by
  after_results <;> rfl
theorem after0_arg0 : StableHlo.after (hostOps0 (F := Ideal)) W (Proc.devRef .tc main_arg0) = W (Proc.devRef .tc main_arg0) := by
  after_results <;> rfl
theorem after0_arg3 : StableHlo.after (hostOps0 (F := Ideal)) W (Proc.devRef .tc main_arg3) = W (Proc.devRef .tc main_arg3) := by
  after_results <;> rfl
theorem after0_arg4 : StableHlo.after (hostOps0 (F := Ideal)) W (Proc.devRef .tc main_arg4) = W (Proc.devRef .tc main_arg4) := by
  after_results <;> rfl

theorem after1_v24 : StableHlo.after (hostOps1 (F := Ideal)) W (Proc.devRef .tc main_v24)
    = aggArr (W (Proc.devRef .tc main_v3)) (W (Proc.devRef .tc main_v1)) (W (Proc.devRef .tc main_v13)) := by
  after_results <;> rfl
theorem after1_v13 : StableHlo.after (hostOps1 (F := Ideal)) W (Proc.devRef .tc main_v13) = W (Proc.devRef .tc main_v13) := by
  after_results <;> rfl
theorem after1_v11 : StableHlo.after (hostOps1 (F := Ideal)) W (Proc.devRef .tc main_v11) = W (Proc.devRef .tc main_v11) := by
  after_results <;> rfl
theorem after1_arg3 : StableHlo.after (hostOps1 (F := Ideal)) W (Proc.devRef .tc main_arg3) = W (Proc.devRef .tc main_arg3) := by
  after_results <;> rfl
theorem after1_arg4 : StableHlo.after (hostOps1 (F := Ideal)) W (Proc.devRef .tc main_arg4) = W (Proc.devRef .tc main_arg4) := by
  after_results <;> rfl

end Cert.KernelIdeal.HostOps
end
-- ==== Proof.KernelForm.lean ====
/-
  The kernel program's result, read at an entry, is the specification's kernel form.

  The arrays the program builds are read at coordinates, one lemma per array: the edge list's rows; the degree (a
  scatter-add of ones read at node `n` is the count of the edges with target `n`; plus one) and its inverse square root
  as a column; the first call's result `hs n k = (x · W) n k · d n`; the gathered and scatter-added `hs` (at `(n, k)` the
  sum, over the edges with target `n`, of `hs` at the node the source number looks up); and the second call's result,
  the activation of `d n · (agg n k + hs n k) + bias k`.  Together: the specification's `outK`.
-/
import proofs.«101936_j37598143709729_2_alg».proof.Proof.KernelRegions
import proofs.«101936_j37598143709729_2_alg».proof.Proof.KernelHost
import proofs.«101936_j37598143709729_2_alg».proof.Proof.Spec
import proofs.«101936_j37598143709729_2_alg».proof.Proof.LibVecGatherScatter
import proofs.«101936_j37598143709729_2_alg».proof.Proof.LibRowGatherScatter
import proofs.«101936_j37598143709729_2_alg».proof.Proof.LibBroadcastInDim2
import proofs.«101936_j37598143709729_2_alg».proof.Proof.LibRank2Layout
import Idealize.ShloMosaic.Lib.ValueLayout

set_option maxRecDepth 16384

noncomputable section

open scoped BigOperators

namespace Cert.KernelIdeal.Form

open Cert.KernelIdeal Cert.KernelIdeal.Gen Cert.KernelIdeal.HostOps Cert.KernelIdeal.Regions
open Idealize.ShloMosaic Idealize.ShloMosaic.TcCoe Idealize.ShloMosaic.ValueIdx
open Idealize.ShloMosaic.VecIndexing Idealize.ShloMosaic.RowIndexing Idealize.ShloMosaic.BroadcastInDim2

variable (a0 : FVec Ideal S100000x256 .f32) (a1 : IVec S2x1600000 32) (a2 : FVec Ideal S256x128 .f32)
  (a3 a4 : FVec Ideal S128 .f32)

/-! ## The edge list's rows -/

theorem colVec_at (e : Fin 1600000) : colVec a1 (ix1 e) = Cert.Gcn.colOf a1 e := by
  unfold colVec Cert.Gcn.colOf
  rw [shapeCast_1a_a_apply, Rank2.sliceRow_apply]
  exact congrArg a1 (funext fun a => match a with | ⟨0, _⟩ => rfl | ⟨1, _⟩ => rfl)

theorem rowVec_at (e : Fin 1600000) : rowVec a1 (ix1 e) = Cert.Gcn.rowOf a1 e := by
  unfold rowVec Cert.Gcn.rowOf
  rw [shapeCast_1a_a_apply, Rank2.sliceRow_apply]
  exact congrArg a1 (funext fun a => match a with | ⟨0, _⟩ => rfl | ⟨1, _⟩ => rfl)

/-! ## The degree and the factor -/

/-- A scalar float literal broadcast to a vector reads the literal everywhere. -/
theorem splat1_at {N : Nat} (b : BitVec 32) (h : S_.BroadcastsInDim ⟨1, ![N]⟩ (![] : Fin 0 → Fin 1)) (n : Fin N) :
    broadcastInDim (⟨1, ![N]⟩ : Shape) ![] h (constant (F := Ideal) S_ .f32 b) (ix1 n) = Ideal.ofBits .f32 b :=
  broadcastInDim_apply _ h _ (ix1 n) (fun a => a.elim0) (fun a => a.elim0)

theorem zerosN_at (n : Fin 100000) : zerosN (ix1 n) = Cert.Gcn.zero := splat1_at _ Facts₀.bcast_S_S100000 n
theorem onesN_at (n : Fin 100000) : onesN (ix1 n) = Cert.Gcn.one := splat1_at _ Facts₀.bcast_S_S100000 n
theorem onesE_at (e : Fin 1600000) : onesE (ix1 e) = Cert.Gcn.one := splat1_at _ Facts₀.bcast_S_S1600000 e
theorem asCol_at (v : IVec S1600000 32) (e : Fin 1600000) : asCol v (rowAt e) = v (ix1 e) :=
  vecToCol_apply v Facts₀.bcast_S1600000_S1600000x1_0 e _

theorem degVec_at (n : Fin 100000) : degVec a1 (ix1 n) = Cert.Gcn.degK a1 n := by
  unfold degVec Cert.Gcn.degK
  rw [addf_apply, onesN_at]
  refine congrArg (· + Cert.Gcn.one) ?_
  refine (scatterAdd_vec_apply Facts₀.scatter_S100000_S1600000x1_S1600000_n_0_0_1_wf (asCol (colVec a1)) zerosN onesE n).trans ?_
  rw [zerosN_at]
  refine congrArg (Cert.Gcn.zero + ·) (Finset.sum_congr rfl fun e _ => ?_)
  rw [asCol_at, colVec_at, onesE_at]

/-- The host's reciprocal square root, entry by entry, is the extended reals'. -/
theorem hostRsqrt_at {s : Shape} (x : FVec Ideal s .f32) (i : s.Idx) : Host.rsqrt x i = Ideal.rsqrt (x i) := rfl

theorem dinvCol_at (n : Fin 100000) (z : Fin 1) : dinvCol a1 (ix2 n z) = Cert.Gcn.dinvK a1 n := by
  unfold dinvCol Cert.Gcn.dinvK
  rw [shapeCast_apply (Host.rsqrt (degVec a1)) Facts₀.shapeCasts_S100000_S100000x1 (ix2 n z) (ix1 n) (by
    rw [Shape.rowMajor_val_one, Shape.rowMajor_val_two]
    show n.val = n.val * 1 + z.val
    have := z.isLt; omega)]
  rw [hostRsqrt_at, degVec_at]

/-! ## The first call's result -/

/-- The first call's result array, from the arguments. -/
def hsArr : S100000x128.Idx → EReal := G0 a0 (truncf .bf16 a2 bitsLt_bf16_f32 : FVec Ideal S256x128 .bf16) (dinvCol a1)

theorem hsArr_at (n : Fin 100000) (k : Fin 128) : hsArr a0 a1 a2 (ix2 n k) = Cert.Gcn.hsK a0 a1 a2 n k := by
  show g0 a0 (truncf .bf16 a2 bitsLt_bf16_f32 : FVec Ideal S256x128 .bf16) (dinvCol a1) n k = _
  unfold g0 Cert.Gcn.hsK Cert.Gcn.hmat
  rw [dinvCol_at]
  refine congrArg (· * Cert.Gcn.dinvK a1 n) (Finset.sum_congr rfl fun j _ => ?_)
  rw [truncf_apply]

/-! ## The gather and the scatter-add between the calls -/

/-- A scalar integer literal broadcast to a vector reads the literal everywhere. -/
theorem splatI_at {N : Nat} (b : BitVec 32) (h : S_.BroadcastsInDim ⟨1, ![N]⟩ (![] : Fin 0 → Fin 1)) (n : Fin N) :
    broadcastInDim (⟨1, ![N]⟩ : Shape) ![] h (constantI S_ 32 b) (ix1 n) = b :=
  broadcastInDim_apply _ h _ (ix1 n) (fun a => a.elim0) (fun a => a.elim0)

/-- The source numbers after the wrap, read at edge `e`. -/
theorem wrapVec_at (row : IVec S1600000 32) (e : Fin 1600000) : wrapVec row (ix1 e) = Cert.Gcn.wrapIdx (row (ix1 e)) := by
  unfold wrapVec
  show Scalar.select (IntOp.cmpi .slt (row (ix1 e)) (broadcastInDim S1600000 ![] bcast_S_S1600000 (constantI S_ 32 0#32) (ix1 e)))
      (IntOp.addi (row (ix1 e)) (broadcastInDim S1600000 ![] bcast_S_S1600000 (constantI S_ 32 100000#32) (ix1 e))) (row (ix1 e)) = _
  rw [splatI_at 0#32 Facts₀.bcast_S_S1600000 e, splatI_at 100000#32 Facts₀.bcast_S_S1600000 e]
  rfl

theorem zerosNC_at (n : Fin 100000) (k : Fin 128) : zerosNC (ix2 n k) = Cert.Gcn.zero :=
  broadcastInDim_apply _ Facts₀.bcast_S_S100000x128 _ (ix2 n k) (fun a => a.elim0) (fun a => a.elim0)

/-- The gathered rows: edge `e`'s row is the row of the node its source number looks up. -/
theorem gathered_at (row : IVec S1600000 32) (hs : FVec Ideal S100000x128 .bf16) (e : Fin 1600000) (k : Fin 128) :
    gathered row hs (ix2 e k) = hs (ix2 (Cert.Gcn.nodeOf (row (ix1 e))) k) := by
  unfold gathered
  rw [extf_apply]
  refine (gather_rows_apply (by norm_num) Facts₀.gather_S100000x128_S1600000x1_S1600000x128_1_0_n_n_0_1_1128_wf hs
    (asCol (wrapVec row)) e k).trans ?_
  refine congrArg (fun u : Fin 100000 => hs (ix2 u k)) (Fin.ext ?_)
  show min (asCol (wrapVec row) (rowAt e)).toInt.toNat (100000 - 1)
    = min (Cert.Gcn.wrapIdx (row (ix1 e))).toInt.toNat (100000 - 1)
  rw [asCol_at, wrapVec_at]

theorem aggArr_at (col row : IVec S1600000 32) (hs : FVec Ideal S100000x128 .bf16) (n : Fin 100000) (k : Fin 128) :
    aggArr col row hs (ix2 n k)
      = Cert.Gcn.zero + ∑ e : Fin 1600000, if (col (ix1 e)).toInt = (n.val : Int)
          then hs (ix2 (Cert.Gcn.nodeOf (row (ix1 e))) k) else 0 := by
  unfold aggArr
  refine (scatterAdd_rows_apply Facts₀.scatter_S100000x128_S1600000x1_S1600000x128_1_0_0_1_wf (asCol col) zerosNC
    (gathered row hs) n k).trans ?_
  rw [zerosNC_at]
  refine congrArg (Cert.Gcn.zero + ·) (Finset.sum_congr rfl fun e _ => ?_)
  rw [asCol_at, gathered_at]

/-! ## The result -/

/-- The program's result array, from the arguments. -/
def resultArr : S100000x128.Idx → EReal :=
  G1 (aggArr (colVec a1) (rowVec a1) (hsArr a0 a1 a2)) (hsArr a0 a1 a2) (dinvCol a1) a3 a4

theorem resultArr_at (n : Fin 100000) (k : Fin 128) :
    resultArr a0 a1 a2 a3 a4 (ix2 n k) = Cert.Gcn.outK a0 a1 a2 a3 a4 n k := by
  show g1 (aggArr (colVec a1) (rowVec a1) (hsArr a0 a1 a2)) (hsArr a0 a1 a2) (dinvCol a1) a3 a4 n k = _
  unfold g1 Cert.Gcn.outK Cert.Gcn.preK Cert.Gcn.aggK
  rw [dinvCol_at, aggArr_at, hsArr_at]
  simp only [colVec_at, rowVec_at, hsArr_at]

end Cert.KernelIdeal.Form

end
-- ==== Proof.KernelValue.lean ====
/-
  The kernel program's result array, from the launch memory.

  The buffer contents at the four segment boundaries are a chain: the launch memory; after the host operations in front of
  the first call (the degree factor as a column, the weight, the edge list's rows); after the first call (its result
  array holds `hs`, every other buffer is as before); after the host gather and scatter-add; after the second call (its
  result array holds the program's result).  Each link is one of the host-side lemmas or one of the two calls' final-array
  lemmas, so the result buffer at the last boundary is `resultArr` of the five argument arrays as launched.
-/
import proofs.«101936_j37598143709729_2_alg».proof.Proof.KernelRun
import proofs.«101936_j37598143709729_2_alg».proof.Proof.KernelForm

set_option maxRecDepth 16384

noncomputable section

namespace Cert.KernelIdeal.Value

open Cert.KernelIdeal Cert.KernelIdeal.Gen Cert.KernelIdeal.HostOps Cert.KernelIdeal.Regions Cert.KernelIdeal.Form
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg) (c : Dev nD)

/-! ## At the first call's entry -/

theorem V1_arg0 : V1 m ρ c main_arg0 = m ((c : Thread nD τ).loc main_arg0) := after0_arg0 (W0 m ρ c)
theorem V1_v12 : V1 m ρ c main_v12
    = (truncf .bf16 (m ((c : Thread nD τ).loc main_arg2)) bitsLt_bf16_f32 : FVec Ideal S256x128 .bf16) := after0_v12 (W0 m ρ c)
theorem V1_v11 : V1 m ρ c main_v11 = dinvCol (m ((c : Thread nD τ).loc main_arg1)) := after0_v11 (W0 m ρ c)

/-! ## At the first call's exit -/

theorem W2_v13 : W2 m ρ c (Proc.devRef .tc main_v13)
    = hsArr (m ((c : Thread nD τ).loc main_arg0)) (m ((c : Thread nD τ).loc main_arg1)) (m ((c : Thread nD τ).loc main_arg2)) := by
  refine (W2_arr m ρ c 3).trans ?_
  rw [final0 (V1 m ρ) c]
  unfold hsArr
  rw [V1_arg0, V1_v12, V1_v11]

theorem W2_v11 : W2 m ρ c (Proc.devRef .tc main_v11) = dinvCol (m ((c : Thread nD τ).loc main_arg1)) :=
  (W2_arr m ρ c 2).trans (((dat0 (V1 m ρ) c).arrAt_in 2 rfl _).trans ((A_eq0 (V1 m ρ) c 2).trans (V1_v11 m ρ c)))

theorem W2_v3 : W2 m ρ c (Proc.devRef .tc main_v3) = colVec (m ((c : Thread nD τ).loc main_arg1)) :=
  (W2_of_ne m ρ c main_v3 (by decide)).trans (after0_v3 (W0 m ρ c))
theorem W2_v1 : W2 m ρ c (Proc.devRef .tc main_v1) = rowVec (m ((c : Thread nD τ).loc main_arg1)) :=
  (W2_of_ne m ρ c main_v1 (by decide)).trans (after0_v1 (W0 m ρ c))
theorem W2_arg3 : W2 m ρ c (Proc.devRef .tc main_arg3) = m ((c : Thread nD τ).loc main_arg3) :=
  (W2_of_ne m ρ c main_arg3 (by decide)).trans (after0_arg3 (W0 m ρ c))
theorem W2_arg4 : W2 m ρ c (Proc.devRef .tc main_arg4) = m ((c : Thread nD τ).loc main_arg4) :=
  (W2_of_ne m ρ c main_arg4 (by decide)).trans (after0_arg4 (W0 m ρ c))

/-! ## At the second call's entry -/

theorem V3_v24 : V3 m ρ c main_v24
    = aggArr (colVec (m ((c : Thread nD τ).loc main_arg1))) (rowVec (m ((c : Thread nD τ).loc main_arg1)))
        (hsArr (m ((c : Thread nD τ).loc main_arg0)) (m ((c : Thread nD τ).loc main_arg1)) (m ((c : Thread nD τ).loc main_arg2))) := by
  refine (after1_v24 (W2 m ρ c)).trans ?_
  rw [W2_v3, W2_v1, W2_v13]
theorem V3_v13 : V3 m ρ c main_v13
    = hsArr (m ((c : Thread nD τ).loc main_arg0)) (m ((c : Thread nD τ).loc main_arg1)) (m ((c : Thread nD τ).loc main_arg2)) :=
  (after1_v13 (W2 m ρ c)).trans (W2_v13 m ρ c)
theorem V3_v11 : V3 m ρ c main_v11 = dinvCol (m ((c : Thread nD τ).loc main_arg1)) :=
  (after1_v11 (W2 m ρ c)).trans (W2_v11 m ρ c)
theorem V3_arg3 : V3 m ρ c main_arg3 = m ((c : Thread nD τ).loc main_arg3) :=
  (after1_arg3 (W2 m ρ c)).trans (W2_arg3 m ρ c)
theorem V3_arg4 : V3 m ρ c main_arg4 = m ((c : Thread nD τ).loc main_arg4) :=
  (after1_arg4 (W2 m ρ c)).trans (W2_arg4 m ρ c)

/-! ## At the return -/

/-- The result buffer at the last boundary is the program's result array of the arguments as launched. -/
theorem W4_v25 : W4 m ρ c (Proc.devRef .tc main_v25)
    = resultArr (m ((c : Thread nD τ).loc main_arg0)) (m ((c : Thread nD τ).loc main_arg1)) (m ((c : Thread nD τ).loc main_arg2))
        (m ((c : Thread nD τ).loc main_arg3)) (m ((c : Thread nD τ).loc main_arg4)) := by
  refine (W4_arr m ρ c 5).trans ?_
  rw [final1 (V3 m ρ) c]
  unfold resultArr
  rw [V3_v24, V3_v13, V3_v11, V3_arg3, V3_arg4]

/-- The kernel program's run: it terminates with the result array at `resultArr` of the arguments, the arguments unchanged. -/
theorem run : θ_run defs (onTc (τ := τ) (main (F := Ideal))) ⟨m, fun _ => 0, ρ⟩ (fun r => ∀ c : Dev nD,
      r.2.mem ((c.tc : Thread nD τ).loc main_v25)
        = resultArr (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W4_v25 m ρ c), (h c).2⟩) (Cert.KernelIdeal.RunValue.run_result m ρ)

end Cert.KernelIdeal.Value

end
-- ==== Proof.lean ====
/-
  The proof of `Cert.Claim`: a graph convolution layer (symmetric degree normalisation with self loops, a linear map, a sum
  over the incoming edges, a bias, a per-channel leaky activation) computed by two pallas_calls around a host gather and
  scatter-add, against its jnp reference, equal as extended reals entry by entry for finite inputs.

  The kernel folds the normalisation into the features before the edge sum: `hs n = (x · W) n · d n` with
  `d n = (indegree n + 1) ^ (-1/2)`, then `out n = act (d n · (∑_{e → n} hs (src e) + hs n) + bias)`.  The reference adds one
  self loop per node to the edge list and computes `act (∑_{e → n} (x · W) (src e) · (d (src e) · d (tgt e)) + bias)` over the
  extended list.  They agree because the self loops contribute exactly the degree's `+ 1` and the term `hs n · d n`, an edge
  into `n` has target factor `d n`, and `d n` distributes over the sum — over the reals, which is where the precondition
  (every float input finite) is used (Proof/Bridge.lean).

  The pieces: the two forms as formulas (Proof/Spec.lean); the reference's run read back as the reference form
  (Proof/RefRun.lean, Proof/RefRead.lean, Proof/RefForm.lean); the kernel program's run with its result named
  (Proof/KernelRun.lean), each call's result array from its blocks (Proof/KernelBodies.lean, Proof/KernelRegions.lean), the host
  operations around them (Proof/KernelHost.lean), all read at an entry as the kernel form (Proof/KernelForm.lean,
  Proof/KernelValue.lean); from the precondition to real entries (Proof/Finite.lean).  The frames of the two kernel programs
  are the generated ones; the reference's frame is its run with the result dropped; the idealization rewrote nothing.
-/
import proofs.«101936_j37598143709729_2_alg».proof.Defs
import proofs.«101936_j37598143709729_2_alg».proof.Proof.Gen.Kernel
import proofs.«101936_j37598143709729_2_alg».proof.Proof.Gen.Kernel.Skeleton
import proofs.«101936_j37598143709729_2_alg».proof.Proof.Gen.Kernel.Launch
import proofs.«101936_j37598143709729_2_alg».proof.Proof.Gen.Kernel.Points
import proofs.«101936_j37598143709729_2_alg».proof.Proof.Gen.Kernel.Frame
import proofs.«101936_j37598143709729_2_alg».proof.Proof.Gen.KernelIdeal
import proofs.«101936_j37598143709729_2_alg».proof.Proof.Gen.KernelIdeal.Skeleton
import proofs.«101936_j37598143709729_2_alg».proof.Proof.Gen.KernelIdeal.Launch
import proofs.«101936_j37598143709729_2_alg».proof.Proof.Gen.KernelIdeal.Points
import proofs.«101936_j37598143709729_2_alg».proof.Proof.Gen.KernelIdeal.Frame
import proofs.«101936_j37598143709729_2_alg».proof.Proof.Gen.ReferenceIdeal
import proofs.«101936_j37598143709729_2_alg».proof.Proof.RefRun
import proofs.«101936_j37598143709729_2_alg».proof.Proof.RefRead
import proofs.«101936_j37598143709729_2_alg».proof.Proof.Gen.Pre_finite_inputs
import proofs.«101936_j37598143709729_2_alg».proof.Proof.RefForm
import proofs.«101936_j37598143709729_2_alg».proof.Proof.Bridge
import proofs.«101936_j37598143709729_2_alg».proof.Proof.Finite
import proofs.«101936_j37598143709729_2_alg».proof.Proof.KernelValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the kernel's result array of the arguments: the kernel by its run, the reference
    because its result, read at an entry, is the reference form, which for finite `x` and `W` is the kernel form. -/
theorem algebraic : Cert.algebraic_KernelIdeal_ReferenceIdeal := by
  intro m ρ m' ρ' hpre hagree
  refine ⟨fun c => Cert.KernelIdeal.Form.resultArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq]
  obtain ⟨h0, h1, h2, h3, h4⟩ := hagree c
  rw [h0, h1, h2, h3, h4]
  obtain ⟨hx, hW⟩ := Cert.Gcn.Finite.real_of_pre _ _ _ _ _ (hpre c)
  funext i
  obtain ⟨n, k, rfl⟩ : ∃ (n : Fin 100000) (k : Fin 128), i = ix2 n k := ⟨i 0, i 1, eq_ix2 i⟩
  rw [Cert.Gcn.Ref.ref_eq_outR, Cert.Gcn.outR_eq_outK _ _ _ _ _ hx hW, ← Cert.KernelIdeal.Form.resultArr_at]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
